-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 105
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x128, .f32⟩
  | .hbm, ⟨96, _⟩ => ⟨S1700000x1, .f32⟩
  | .hbm, ⟨97, _⟩ => ⟨S1700000x128, .f32⟩
  | .hbm, ⟨98, _⟩ => ⟨S1700000x128, .f32⟩
  | .hbm, ⟨99, _⟩ => ⟨S_, .f32⟩
  | .hbm, ⟨100, _⟩ => ⟨S100000x128, .f32⟩
  | .hbm, ⟨101, _⟩ => ⟨S1700000x1, .i32⟩
  | .hbm, ⟨102, _⟩ => ⟨S100000x128, .f32⟩
  | .hbm, ⟨103, _⟩ => ⟨S1x128, .f32⟩
  | .hbm, ⟨104, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S100000x128, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x128, .f32⟩
  | 100 => ⟨S1700000x1, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x128, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000, .f32⟩
  | 4 => ⟨S1700000, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000x128, .f32⟩
  | 14 => ⟨S1700000x1, .f32⟩
  | 15 => ⟨S1700000x128, .f32⟩
  | 16 => ⟨S1700000x128, .f32⟩
  | 17 => ⟨S_, .f32⟩
  | 18 => ⟨S100000x128, .f32⟩
  | 19 => ⟨S1700000x1, .i32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_18 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_20 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_22 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_call3_cst : Ref sig .tc := ⟨.hbm, 152, rfl⟩
abbrev main_call3_v0 : Ref sig .tc := ⟨.hbm, 153, rfl⟩
abbrev main_v113 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.ResultRun.lean ====
/-
  The idealized kernel's run with its result named.

  The program is twelve segments: six stretches of host operations and six pipelined calls.  Along the run the
  TensorCore's buffer contents pass through the boundary valuations W0 … W12 of the generated frame
  (a stretch's boundary is the fold of its operations over the boundary before; a call's boundary puts each of
  its arrays at what its write-backs leave and keeps every other buffer).  The generated frame states only that the
  arguments end unchanged.  Here the same launch is read once more at the result buffer: after every weakly fair
  execution the result array holds what the last boundary W12 holds there, and the arguments are unchanged.
-/
import proofs.«157408_j30855045055189_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's
    contents, and the eight argument arrays end as launched. -/
theorem run : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Result

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibWholeProduct.lean ====
/-
  The matrix product of an M×K array with a K×N array on the extended reals, as ONE function of the two arrays:
  entry (p, c) is Σ_{q < K} x[p, q] · w[q, c] (`mm`). The vector unit's product into a zero accumulator (whatever
  float formats its operands were cast to) and the host's dot_general (contract the left operand's axis 1 with the
  right operand's axis 0, no batch axes) are both this function, as whole arrays (`matmul_zero_eq`,
  `dotGeneral_eq`). An entry depends on one row of the left operand and one column of the right operand
  (`mm_eq_of_row_col`): two products of arrays of any heights and widths agree at a pair of entries whose row and
  column agree term by term — what a product computed a block of rows at a time needs. Any extents; no program.
-/
import proofs.«157408_j30855045055189_1_alg».proof.Proof.LibPlainDot

noncomputable section

open scoped BigOperators

namespace Cert.Product

open Idealize.ShloMosaic Idealize.ShloMosaic.ValueIdx Cert.PlainDot

/-- The product, entry by entry. -/
def mm {M K N : Nat} (x : (⟨2, ![M, K]⟩ : Shape).Idx → EReal) (w : (⟨2, ![K, N]⟩ : Shape).Idx → EReal) :
    (⟨2, ![M, N]⟩ : Shape).Idx → EReal :=
  fun i => ∑ q : Fin K, x (ix2 (i 0) q) * w (ix2 q (i 1))

theorem mm_apply {M K N : Nat} (x : (⟨2, ![M, K]⟩ : Shape).Idx → EReal) (w : (⟨2, ![K, N]⟩ : Shape).Idx → EReal)
    (p : Fin M) (c : Fin N) : mm x w (ix2 p c) = ∑ q : Fin K, x (ix2 p q) * w (ix2 q c) := rfl

/-- An entry of a product depends on one row of the left operand and one column of the right operand: two products,
    of arrays of any heights and widths, agree at a pair of entries whose row and column agree term by term. -/
theorem mm_eq_of_row_col {M K N M' N' : Nat}
    (x : (⟨2, ![M, K]⟩ : Shape).Idx → EReal) (w : (⟨2, ![K, N]⟩ : Shape).Idx → EReal)
    (x' : (⟨2, ![M', K]⟩ : Shape).Idx → EReal) (w' : (⟨2, ![K, N']⟩ : Shape).Idx → EReal)
    (i : (⟨2, ![M, N]⟩ : Shape).Idx) (i' : (⟨2, ![M', N']⟩ : Shape).Idx)
    (hx : ∀ q : Fin K, x (ix2 (i 0) q) = x' (ix2 (i' 0) q)) (hw : ∀ q : Fin K, w (ix2 q (i 1)) = w' (ix2 q (i' 1))) :
    mm x w i = mm x' w' i' :=
  Finset.sum_congr rfl fun q _ => by rw [hx q, hw q]

variable {M K N : Nat} {d : DotDims ⟨2, ![M, K]⟩ ⟨2, ![K, N]⟩ ⟨2, ![M, N]⟩}

/-- The host's dot_general of a plain product is `mm`. -/
theorem dotGeneral_eq (h : IsPlain d) (prec : Option ContractPrecision)
    (l : FVec Ideal ⟨2, ![M, K]⟩ .f32) (r : FVec Ideal ⟨2, ![K, N]⟩ .f32) :
    Host.dotGeneral d prec l r = mm l r := by
  funext i
  rw [eq_ix2 i]
  exact dotGeneral_apply h prec l r (i 0) (i 1)

/-- The vector unit's product into a zero accumulator is `mm`, whatever float formats the operands were cast to. -/
theorem matmul_zero_eq (h : IsPlain d) (prec : Option ContractPrecision) {φ₁ φ₂ : FTy}
    (l : FVec Ideal ⟨2, ![M, K]⟩ φ₁) (r : FVec Ideal ⟨2, ![K, N]⟩ φ₂) :
    matmul d prec l r (constant ⟨2, ![M, N]⟩ .f32 0x00000000#32) = mm (K := K) (fun i => l i) (fun i => r i) := by
  funext i
  rw [eq_ix2 i]
  exact matmul_zero_apply h prec l r (i 0) (i 1)

end Cert.Product

end
-- ==== Proof.Products.lean ====
/-
  The three matrix-product calls, each read as a whole-array function.

  A call runs over ten grid points; point t loads rows 10000·t … 10000·t + 9999 of the left operand and the whole
  128×128 weight matrix, multiplies them, and writes the product back to the same rows of the result.  An entry of a
  product depends on one row of the left operand and one column of the right operand, so block t of the result is
  block t of the product of the WHOLE left operand with the weight matrix; the ten blocks cover the result, which
  therefore ends holding that product.  The statements are at the buffer contents `V` the call is entered with.
-/
import proofs.«157408_j30855045055189_1_alg».proof.Proof.Gen.KernelIdeal.Frame
import proofs.«157408_j30855045055189_1_alg».proof.Proof.LibWholeProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Products

open Cert.KernelIdeal Cert.KernelIdeal.Gen

variable (V : (c : Dev nD) → (b : Ref sig .tc) → Buf (Elt Ideal) ((c : Thread nD τ).loc b))

theorem zeroOff : (![0, 0] : Fin 2 → Nat) = fun _ => 0 := funext fun a => by fin_cases a <;> rfl

/-- An entry of the product of a block of rows with the weights is the entry of the whole product whose row and
    column hold the same numbers. -/
theorem mm_block (X : S100000x128.Idx → EReal) (W : S128x128.Idx → EReal) (xb : S10000x128.Idx → EReal)
    (wb : S128x128.Idx → EReal) (j : S10000x128.Idx) (i : S100000x128.Idx)
    (hx : ∀ q : Fin 128, xb (ix2 (j 0) q) = X (ix2 (i 0) q)) (hw : ∀ q : Fin 128, wb (ix2 q (j 1)) = W (ix2 q (i 1))) :
    Cert.Product.mm (M := 10000) (K := 128) (N := 128) xb wb j = Cert.Product.mm (M := 100000) (K := 128) (N := 128) X W i :=
  Cert.Product.mm_eq_of_row_col xb wb X W j i hx hw

/-! ## Call 0: the product of a block of rows with the weight matrix -/

/-- The body's stored value is the product of the two blocks it loads; at the
    ideal instance the change of float format is the identity. -/
theorem pay0_eq (x : Vec Ideal S10000x128 .f32) (w : Vec Ideal S128x128 .f32) :
    k0_pay1 x w = Cert.Product.mm (M := 10000) (K := 128) (N := 128) x w := by
  unfold k0_pay1
  exact Cert.Product.matmul_zero_eq (d := dot_S10000x128_S128x128_S10000x128_1_0_0_1_n_n) ⟨rfl, rfl, rfl, rfl, rfl, rfl⟩ none _ _

/-- The index maps, decided over the grid: the row blocks of the left operand and of the result move with the
    point, the weight matrix stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed0 (c : Dev nD) (t : Fin cfg0.N) :
    (dat0 V c).flushed 2 t = ((cfg0.win 2).blk t).view.read (Elt Ideal)
      (Cert.Product.mm (M := 100000) (K := 128) (N := 128) (V c main_arg0) (V c main_arg2)) := by
  show (cfg0.win 2).cut (grid0.coords t) ((dat0 V c).after 2 t) = _
  rw [after0_2]
  unfold out0_2
  rw [View.canon_unit_zero zeroOff]
  simp only [View.ld_unit_zero (S := S10000x128) zeroOff, View.ld_unit_zero (S := S128x128) zeroOff]
  rw [pay0_eq]
  obtain ⟨e0, e1, e2, e3, e4, e5⟩ := idx0 t
  funext j
  refine mm_block (V c main_arg0) (V c main_arg2) _ _ j _ (fun q => ?_) (fun q => ?_)
  · show V c main_arg0 (((cfg0.win 0).blk t).view.emb (ix2 (j 0) q)) = V c main_arg0 (ix2 ((((cfg0.win 2).blk t).view.emb j) 0) q)
    congr 1; funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * q.val = q.val; omega
  · show V c main_arg2 (((cfg0.win 1).blk t).view.emb (ix2 q (j 1))) = V c main_arg2 (ix2 q ((((cfg0.win 2).blk t).view.emb j) 1))
    congr 1; funext a; apply Fin.ext
    match a with
    | ⟨0, _⟩ => show win0_1.index t (0 : Fin 2) * 128 + 1 * q.val = q.val; omega
    | ⟨1, _⟩ => show win0_1.index t (1 : Fin 2) * 128 + 1 * (j 1).val = win0_2.index t (1 : Fin 2) * 128 + 1 * (j 1).val; omega

/-- An index of the result array lies in point `t`'s block iff each coordinate lies in the block's range. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row `r` of the result lies in the block of point `r / 10000`: the ten blocks cover the array. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := idx0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the call its result array holds the whole product of the arrays the call found. -/
theorem product0 (c : Dev nD) :
    (dat0 V c).arrAt 2 cfg0.N = Cert.Product.mm (M := 100000) (K := 128) (N := 128) (V c main_arg0) (V c main_arg2) :=
  (dat0 V c).arrAt_eq_of_cover 2 _ (fun t _ => flushed0 V c t) (cover0)

/-! ## Call 2: the product of a block of rows with the weight matrix -/

/-- The body's stored value is the product of the two blocks it loads (the cast to the same shape does nothing); at the
    ideal instance the change of float format is the identity. -/
theorem pay2_eq (x : Vec Ideal S10000x128 .f32) (w : Vec Ideal S128x128 .f32) :
    k2_pay1 x w = Cert.Product.mm (M := 10000) (K := 128) (N := 128) x w := by
  unfold k2_pay1
  rw [shapeCast_self]
  exact Cert.Product.matmul_zero_eq (d := dot_S10000x128_S128x128_S10000x128_1_0_0_1_n_n) ⟨rfl, rfl, rfl, rfl, rfl, rfl⟩ none _ _

/-- The index maps, decided over the grid: the row blocks of the left operand and of the result move with the
    point, the weight matrix stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product. -/
theorem flushed2 (c : Dev nD) (t : Fin cfg2.N) :
    (dat2 V c).flushed 2 t = ((cfg2.win 2).blk t).view.read (Elt Ideal)
      (Cert.Product.mm (M := 100000) (K := 128) (N := 128) (V c main_v45) (V c main_arg4)) := by
  show (cfg2.win 2).cut (grid2.coords t) ((dat2 V c).after 2 t) = _
  rw [after2_2]
  unfold out2_2
  rw [View.canon_unit_zero zeroOff]
  simp only [View.ld_unit_zero (S := S10000x128) zeroOff, View.ld_unit_zero (S := S128x128) zeroOff]
  rw [pay2_eq]
  obtain ⟨e0, e1, e2, e3, e4, e5⟩ := idx2 t
  funext j
  refine mm_block (V c main_v45) (V c main_arg4) _ _ j _ (fun q => ?_) (fun q => ?_)
  · show V c main_v45 (((cfg2.win 0).blk t).view.emb (ix2 (j 0) q)) = V c main_v45 (ix2 ((((cfg2.win 2).blk t).view.emb j) 0) q)
    congr 1; funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * q.val = q.val; omega
  · show V c main_arg4 (((cfg2.win 1).blk t).view.emb (ix2 q (j 1))) = V c main_arg4 (ix2 q ((((cfg2.win 2).blk t).view.emb j) 1))
    congr 1; funext a; apply Fin.ext
    match a with
    | ⟨0, _⟩ => show win2_1.index t (0 : Fin 2) * 128 + 1 * q.val = q.val; omega
    | ⟨1, _⟩ => show win2_1.index t (1 : Fin 2) * 128 + 1 * (j 1).val = win2_2.index t (1 : Fin 2) * 128 + 1 * (j 1).val; omega

/-- An index of the result array lies in point `t`'s block iff each coordinate lies in the block's range. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v46).slice (win2_2.rect t)).set ↔ _
  rw [View.set_slice_whole, Rect.mem_set_unit]
  exact Iff.rfl

/-- Row `r` of the result lies in the block of point `r / 10000`: the ten blocks cover the array. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := idx2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the call its result array holds the whole product of the arrays the call found. -/
theorem product2 (c : Dev nD) :
    (dat2 V c).arrAt 2 cfg2.N = Cert.Product.mm (M := 100000) (K := 128) (N := 128) (V c main_v45) (V c main_arg4) :=
  (dat2 V c).arrAt_eq_of_cover 2 _ (fun t _ => flushed2 V c t) (cover2)

/-! ## Call 4: the product of a block of rows with the weight matrix -/

/-- The body's stored value is the product of the two blocks it loads (the cast to the same shape does nothing); at the
    ideal instance the change of float format is the identity. -/
theorem pay4_eq (x : Vec Ideal S10000x128 .f32) (w : Vec Ideal S128x128 .f32) :
    k4_pay1 x w = Cert.Product.mm (M := 10000) (K := 128) (N := 128) x w := by
  unfold k4_pay1
  rw [shapeCast_self]
  exact Cert.Product.matmul_zero_eq (d := dot_S10000x128_S128x128_S10000x128_1_0_0_1_n_n) ⟨rfl, rfl, rfl, rfl, rfl, rfl⟩ none _ _

/-- The index maps, decided over the grid: the row blocks of the left operand and of the result move with the
    point, the weight matrix stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole product. -/
theorem flushed4 (c : Dev nD) (t : Fin cfg4.N) :
    (dat4 V c).flushed 2 t = ((cfg4.win 2).blk t).view.read (Elt Ideal)
      (Cert.Product.mm (M := 100000) (K := 128) (N := 128) (V c main_v61) (V c main_arg6)) := by
  show (cfg4.win 2).cut (grid4.coords t) ((dat4 V c).after 2 t) = _
  rw [after4_2]
  unfold out4_2
  rw [View.canon_unit_zero zeroOff]
  simp only [View.ld_unit_zero (S := S10000x128) zeroOff, View.ld_unit_zero (S := S128x128) zeroOff]
  rw [pay4_eq]
  obtain ⟨e0, e1, e2, e3, e4, e5⟩ := idx4 t
  funext j
  refine mm_block (V c main_v61) (V c main_arg6) _ _ j _ (fun q => ?_) (fun q => ?_)
  · show V c main_v61 (((cfg4.win 0).blk t).view.emb (ix2 (j 0) q)) = V c main_v61 (ix2 ((((cfg4.win 2).blk t).view.emb j) 0) q)
    congr 1; funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * q.val = q.val; omega
  · show V c main_arg6 (((cfg4.win 1).blk t).view.emb (ix2 q (j 1))) = V c main_arg6 (ix2 q ((((cfg4.win 2).blk t).view.emb j) 1))
    congr 1; funext a; apply Fin.ext
    match a with
    | ⟨0, _⟩ => show win4_1.index t (0 : Fin 2) * 128 + 1 * q.val = q.val; omega
    | ⟨1, _⟩ => show win4_1.index t (1 : Fin 2) * 128 + 1 * (j 1).val = win4_2.index t (1 : Fin 2) * 128 + 1 * (j 1).val; omega

/-- An index of the result array lies in point `t`'s block iff each coordinate lies in the block's range. -/
theorem mem_blk4 (t : Fin cfg4.N) (i : S100000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v62).slice (win4_2.rect t)).set ↔ _
  rw [View.set_slice_whole, Rect.mem_set_unit]
  exact Iff.rfl

/-- Row `r` of the result lies in the block of point `r / 10000`: the ten blocks cover the array. -/
theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨-, -, -, -, e4, e5⟩ := idx4 t
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- After the call its result array holds the whole product of the arrays the call found. -/
theorem product4 (c : Dev nD) :
    (dat4 V c).arrAt 2 cfg4.N = Cert.Product.mm (M := 100000) (K := 128) (N := 128) (V c main_v61) (V c main_arg6) :=
  (dat4 V c).arrAt_eq_of_cover 2 _ (fun t _ => flushed4 V c t) (cover4)

end Cert.KernelIdeal.Products

end
-- ==== Proof.LibLayerOps.lean ====
/-
  The operations of a dense layer read at one entry, on the extended reals (general lemmas: any extents).

  * a product against a weight matrix that is TRANSPOSED FIRST, as an operation of its own, and then multiplied
    plainly (x · Wᵀ with W of shape N×K): entry (p, c) is Σ_q x[p, q] · W[c, q] — for the vector unit's matmul into
    a zero accumulator and for the host's dot_general alike;
  * a bias vector of length C laid out as a 1×C row and repeated down the rows, by either spelling (a shape cast
    followed by a broadcast; two broadcasts by dimension map): entry (p, c) is the bias's entry c — for every C,
    the one-column case C = 1 included (there the row's only coordinate is 0, which is what a unit axis is read at).
-/
import proofs.«157408_j30855045055189_1_alg».proof.Proof.LibPlainDot
import Idealize.ShloMosaic.Lib.ValueLayout
import Idealize.ShloMosaic.Lib.Pipeline.Value

noncomputable section

open scoped BigOperators

namespace Cert.LayerOps

open Idealize.ShloMosaic Idealize.ShloMosaic.ValueIdx

variable {M K N : Nat} {d : DotDims ⟨2, ![M, K]⟩ ⟨2, ![K, N]⟩ ⟨2, ![M, N]⟩}

/-- The vector unit's product against a transposed weight matrix, into a zero accumulator, at entry (p, c). -/
theorem matmul_transposed_apply (h : PlainDot.IsPlain d) (prec : Option ContractPrecision) {φ₁ φ₂ : FTy}
    (l : FVec Ideal ⟨2, ![M, K]⟩ φ₁) (w : FVec Ideal ⟨2, ![N, K]⟩ φ₂)
    (ht : (⟨2, ![N, K]⟩ : Shape).Transposes [1, 0] ⟨2, ![K, N]⟩) (p : Fin M) (c : Fin N) :
    matmul d prec l (transpose ⟨2, ![K, N]⟩ [1, 0] w ht) (constant ⟨2, ![M, N]⟩ .f32 0x00000000#32) (ix2 p c)
      = ∑ q : Fin K, l (ix2 p q) * w (ix2 c q) :=
  (PlainDot.matmul_zero_apply h prec l (transpose ⟨2, ![K, N]⟩ [1, 0] w ht) p c).trans
    (Finset.sum_congr rfl fun q _ => congrArg (l (ix2 p q) * ·) (transpose_ix2_apply w ht q c))

/-- The host's product against a transposed weight matrix, at entry (p, c). -/
theorem dotGeneral_transposed_apply (h : PlainDot.IsPlain d) (prec : Option ContractPrecision) {φ₁ φ₂ : FTy}
    (l : FVec Ideal ⟨2, ![M, K]⟩ φ₁) (w : FVec Ideal ⟨2, ![N, K]⟩ φ₂)
    (ht : (⟨2, ![N, K]⟩ : Shape).Transposes [1, 0] ⟨2, ![K, N]⟩) (p : Fin M) (c : Fin N) :
    Host.dotGeneral d prec l (transpose ⟨2, ![K, N]⟩ [1, 0] w ht) (ix2 p c)
      = ∑ q : Fin K, l (ix2 p q) * w (ix2 c q) :=
  (PlainDot.dotGeneral_apply h prec l (transpose ⟨2, ![K, N]⟩ [1, 0] w ht) p c).trans
    (Finset.sum_congr rfl fun q _ => congrArg (l (ix2 p q) * ·) (transpose_ix2_apply w ht q c))

/-- A bias cast to a row and broadcast down R rows, at entry (p, c): any C. -/
theorem bias_cast_rows {α : Type} {R C : Nat} (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) :=
  (broadcastTo_1b_ab_apply (shapeCast ⟨2, ![1, C]⟩ v hs) hb p c).trans (shapeCast_a_1a_apply v hs 0 c)

/-- A coordinate below C is what a broadcast reads on an axis of extent C: itself, or 0 when C = 1 (then it IS 0). -/
private theorem coord_or_zero {C : Nat} (c : Fin C) : c.val = if C = 1 then 0 else c.val := by
  split
  · have := c.isLt; omega
  · rfl

/-- A bias broadcast to a row and then down N rows, both by dimension map, at entry (n, c): any C. -/
theorem bias_bcast_rows {α : Type} {R C : Nat} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (n : Fin R) (c : Fin C) :
    broadcastInDim ⟨2, ![R, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ => rfl
    | ⟨1, _⟩ => exact coord_or_zero c)).trans
  (broadcastInDim_apply ![1] h1 b (ix2 (0 : Fin 1) c) (ix1 c) (fun a => by
    match a with
    | ⟨0, _⟩ => exact coord_or_zero c))

end Cert.LayerOps

end
-- ==== Proof.LibHiddenLayer.lean ====
/-
  One hidden layer of the network on the extended reals, as whole-array functions of any extents.

  `hidden a b` adds the bias vector `b` to every row of the matrix `a` and takes the maximum with zero, entry by
  entry: entry (p, c) is max (a[p, c] + b[c]) 0. The layer's output is the product of that matrix with the weight
  matrix (`Cert.Product.mm`).

  Two spellings of the activation are both `hidden`:
  * the vector unit's — the bias as a 1×C row repeated down the rows, the zero a splat scalar; here the row is any
    1×C array whose entry (0, c) is b[c];
  * the host's — the bias broadcast to a 1×C row and then down the rows by dimension maps, the zero a rank-0
    constant broadcast over the array.

  An entry of `hidden a b` reads the same entry of `a` and one entry of `b`; so the rows of `hidden a b` that a block
  of rows of `a` gives are that block of rows of `hidden` of the whole matrix (`hidden_congr`).
-/
import proofs.«157408_j30855045055189_1_alg».proof.Proof.LibWholeProduct
import proofs.«157408_j30855045055189_1_alg».proof.Proof.LibLayerOps

noncomputable section

namespace Cert.Layer

open Idealize.ShloMosaic Idealize.ShloMosaic.ValueIdx

/-- relu(a + b): the bias `b` added to every row, then the maximum with zero. -/
def hidden {M C : Nat} (a : (⟨2, ![M, C]⟩ : Shape).Idx → EReal) (b : (⟨1, ![C]⟩ : Shape).Idx → EReal) :
    (⟨2, ![M, C]⟩ : Shape).Idx → EReal :=
  fun i => max (a i + b (ix1 (i 1))) (Ideal.ofBits .f32 0x00000000#32)

theorem hidden_apply {M C : Nat} (a : (⟨2, ![M, C]⟩ : Shape).Idx → EReal) (b : (⟨1, ![C]⟩ : Shape).Idx → EReal)
    (p : Fin M) (c : Fin C) :
    hidden a b (ix2 p c) = max (a (ix2 p c) + b (ix1 c)) (Ideal.ofBits .f32 0x00000000#32) := rfl

/-- Two matrices of any heights whose entries agree at a pair of positions in the same column, under biases that
    agree at that column, give the same activation there. -/
theorem hidden_congr {M M' C : Nat} (a : (⟨2, ![M, C]⟩ : Shape).Idx → EReal) (a' : (⟨2, ![M', C]⟩ : Shape).Idx → EReal)
    (b b' : (⟨1, ![C]⟩ : Shape).Idx → EReal) (p : Fin M) (p' : Fin M') (c : Fin C)
    (h : a (ix2 p c) = a' (ix2 p' c)) (hb : b (ix1 c) = b' (ix1 c)) :
    hidden a b (ix2 p c) = hidden a' b' (ix2 p' c) := by
  rw [hidden_apply, hidden_apply, h, hb]

/-- The vector unit's spelling: a 1×C row holding the bias, repeated down the rows; a splat zero. -/
theorem hidden_unit {M C : Nat} (a : FVec Ideal ⟨2, ![M, C]⟩ .f32) (row : FVec Ideal ⟨2, ![1, C]⟩ .f32)
    (b : (⟨1, ![C]⟩ : Shape).Idx → EReal) (hrow : ∀ c : Fin C, row (ix2 (0 : Fin 1) c) = b (ix1 c))
    (hb : (⟨2, ![1, C]⟩ : Shape).Broadcasts ⟨2, ![M, C]⟩) :
    maximumf (addf a (broadcastTo ⟨2, ![M, C]⟩ row hb))
        (broadcast ⟨2, ![M, C]⟩ (Scalar.ofBits (F := Ideal) .f32 0x00000000#32)) = hidden a b := by
  funext i
  rw [eq_ix2 i]
  show max (a (ix2 (i 0) (i 1)) + broadcastTo ⟨2, ![M, C]⟩ row hb (ix2 (i 0) (i 1))) _ = _
  rw [broadcastTo_1b_ab_apply row hb (i 0) (i 1), hrow (i 1)]
  rfl

/-- A rank-0 value broadcast over a matrix reads that value everywhere. -/
theorem splat_apply {α : Type} {M C : Nat} (dims : Fin 0 → Fin 2)
    (h0 : (⟨0, ![]⟩ : Shape).BroadcastsInDim ⟨2, ![M, C]⟩ dims) (x : (⟨0, ![]⟩ : Shape).Idx → α)
    (i : (⟨2, ![M, C]⟩ : Shape).Idx) : broadcastInDim ⟨2, ![M, C]⟩ dims h0 x i = x ix0 :=
  broadcastInDim_apply dims h0 x i ix0 (fun a => a.elim0)

/-- The host's spelling: the bias broadcast to a row and down the rows by dimension maps; a rank-0 zero
    broadcast over the array. -/
theorem hidden_host {M C : Nat} (a : FVec Ideal ⟨2, ![M, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![M, C]⟩ ![0, 1])
    (dims : Fin 0 → Fin 2) (h0 : (⟨0, ![]⟩ : Shape).BroadcastsInDim ⟨2, ![M, C]⟩ dims) :
    maximumf (addf a (broadcastInDim ⟨2, ![M, C]⟩ ![0, 1] h2 (broadcastInDim ⟨2, ![1, C]⟩ ![1] h1 b)))
        (broadcastInDim ⟨2, ![M, C]⟩ dims h0 (constant (F := Ideal) ⟨0, ![]⟩ .f32 0x00000000#32)) = hidden a b := by
  funext i
  rw [eq_ix2 i]
  show max (a (ix2 (i 0) (i 1))
      + broadcastInDim ⟨2, ![M, C]⟩ ![0, 1] h2 (broadcastInDim ⟨2, ![1, C]⟩ ![1] h1 b) (ix2 (i 0) (i 1)))
    (broadcastInDim ⟨2, ![M, C]⟩ dims h0 (constant (F := Ideal) ⟨0, ![]⟩ .f32 0x00000000#32) (ix2 (i 0) (i 1))) = _
  rw [LayerOps.bias_bcast_rows b h1 h2 (i 0) (i 1), splat_apply]
  rfl

/-- A length-C vector reshaped to a 1×C row holds the vector's entry c at (0, c). -/
theorem row_of_cast {C : Nat} (b : (⟨1, ![C]⟩ : Shape).Idx → EReal)
    (hs : (⟨1, ![C]⟩ : Shape).ShapeCasts ⟨2, ![1, C]⟩) (c : Fin C) :
    shapeCast ⟨2, ![1, C]⟩ b hs (ix2 (0 : Fin 1) c) = b (ix1 c) :=
  shapeCast_a_1a_apply b hs 0 c

end Cert.Layer

end
-- ==== Proof.Activations.lean ====
/-
  The three bias-and-rectify calls, each read as a whole-array function.

  A call runs over ten grid points; point t loads rows 10000·t … 10000·t + 9999 of its operand and the 1×128 bias
  row, adds the row to every loaded row, keeps the positive part, and writes the block back to the same rows of the
  result.  Entry (p, c) of the activation reads entry (p, c) of the operand and entry c of the bias, so block t of
  the result is block t of the activation of the WHOLE operand; the ten blocks cover the result, which therefore ends
  holding that activation.  The statements are at the buffer contents `V` the call is entered with.
-/
import proofs.«157408_j30855045055189_1_alg».proof.Proof.Gen.KernelIdeal.Frame
import proofs.«157408_j30855045055189_1_alg».proof.Proof.LibHiddenLayer
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Activations

open Cert.KernelIdeal Cert.KernelIdeal.Gen

variable (V : (c : Dev nD) → (b : Ref sig .tc) → Buf (Elt Ideal) ((c : Thread nD τ).loc b))

theorem zeroOff : (![0, 0] : Fin 2 → Nat) = fun _ => 0 := funext fun a => by fin_cases a <;> rfl

/-- A 1×128 row read as the length-128 vector of its entries. -/
def rowVec (row : S1x128.Idx → EReal) : S128.Idx → EReal := fun k => row (ix2 (0 : Fin 1) (k 0))

/-- An entry of the activation of a block of rows is the entry of the activation of the whole array that reads the
    same operand entry and the same bias entry. -/
theorem act_block (A : S100000x128.Idx → EReal) (R : S1x128.Idx → EReal) (ab : S10000x128.Idx → EReal)
    (rb : S1x128.Idx → EReal) (j : S10000x128.Idx) (i : S100000x128.Idx)
    (ha : ab j = A i) (hr : rb (ix2 (0 : Fin 1) (j 1)) = R (ix2 (0 : Fin 1) (i 1))) :
    Cert.Layer.hidden (M := 10000) (C := 128) ab (rowVec rb) j
      = Cert.Layer.hidden (M := 100000) (C := 128) A (rowVec R) i := by
  show max (ab j + rb (ix2 (0 : Fin 1) (j 1))) _ = max (A i + R (ix2 (0 : Fin 1) (i 1))) _
  rw [ha, hr]

/-! ## Call 1: bias and positive part on a block of rows -/

/-- The body's stored value is the activation of its block of rows under the bias row it loads (the casts to the
    same shapes do nothing). -/
theorem pay1_eq (x : Vec Ideal S10000x128 .f32) (r : Vec Ideal S1x128 .f32) :
    k1_pay1 x r = Cert.Layer.hidden (M := 10000) (C := 128) x (rowVec r) := by
  unfold k1_pay1
  rw [shapeCast_self, shapeCast_self]
  exact Cert.Layer.hidden_unit x r (rowVec r) (fun c => rfl) _

/-- The index maps, decided over the grid: the row blocks of the operand and of the result move with the point,
    the bias row stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the activation of the whole array. -/
theorem flushed1 (c : Dev nD) (t : Fin cfg1.N) :
    (dat1 V c).flushed 2 t = ((cfg1.win 2).blk t).view.read (Elt Ideal)
      (Cert.Layer.hidden (M := 100000) (C := 128) (V c main_v43) (rowVec (V c main_v44))) := by
  show (cfg1.win 2).cut (grid1.coords t) ((dat1 V c).after 2 t) = _
  rw [after1_2]
  unfold out1_2
  rw [View.canon_unit_zero zeroOff]
  simp only [View.ld_unit_zero (S := S10000x128) zeroOff, View.ld_unit_zero (S := S1x128) zeroOff]
  rw [pay1_eq]
  obtain ⟨e0, e1, e2, e3, e4, e5⟩ := idx1 t
  funext j
  refine act_block (V c main_v43) (V c main_v44) _ _ j _ ?_ ?_
  · show V c main_v43 (((cfg1.win 0).blk t).view.emb j) = V c main_v43 (((cfg1.win 2).blk t).view.emb j)
    refine congrArg (V c main_v43) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  · show V c main_v44 (((cfg1.win 1).blk t).view.emb (ix2 (0 : Fin 1) (j 1))) = V c main_v44 (ix2 (0 : Fin 1) ((((cfg1.win 2).blk t).view.emb j) 1))
    refine congrArg (V c main_v44) ?_
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the result array lies in point `t`'s block iff each coordinate lies in the block's range. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- Row `r` of the result lies in the block of point `r / 10000`: the ten blocks cover the array. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, e4, e5⟩ := idx1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the call its result array holds the activation of the array the call found, under the bias row it found. -/
theorem activation1 (c : Dev nD) :
    (dat1 V c).arrAt 2 cfg1.N = Cert.Layer.hidden (M := 100000) (C := 128) (V c main_v43) (rowVec (V c main_v44)) :=
  (dat1 V c).arrAt_eq_of_cover 2 _ (fun t _ => flushed1 V c t) (cover1)

/-! ## Call 3: bias and positive part on a block of rows -/

/-- The body's stored value is the activation of its block of rows under the bias row it loads (the casts to the
    same shapes do nothing). -/
theorem pay3_eq (x : Vec Ideal S10000x128 .f32) (r : Vec Ideal S1x128 .f32) :
    k3_pay1 x r = Cert.Layer.hidden (M := 10000) (C := 128) x (rowVec r) := by
  unfold k3_pay1
  rw [shapeCast_self, shapeCast_self]
  exact Cert.Layer.hidden_unit x r (rowVec r) (fun c => rfl) _

/-- The index maps, decided over the grid: the row blocks of the operand and of the result move with the point,
    the bias row stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the activation of the whole array. -/
theorem flushed3 (c : Dev nD) (t : Fin cfg3.N) :
    (dat3 V c).flushed 2 t = ((cfg3.win 2).blk t).view.read (Elt Ideal)
      (Cert.Layer.hidden (M := 100000) (C := 128) (V c main_v59) (rowVec (V c main_v60))) := by
  show (cfg3.win 2).cut (grid3.coords t) ((dat3 V c).after 2 t) = _
  rw [after3_2]
  unfold out3_2
  rw [View.canon_unit_zero zeroOff]
  simp only [View.ld_unit_zero (S := S10000x128) zeroOff, View.ld_unit_zero (S := S1x128) zeroOff]
  rw [pay3_eq]
  obtain ⟨e0, e1, e2, e3, e4, e5⟩ := idx3 t
  funext j
  refine act_block (V c main_v59) (V c main_v60) _ _ j _ ?_ ?_
  · show V c main_v59 (((cfg3.win 0).blk t).view.emb j) = V c main_v59 (((cfg3.win 2).blk t).view.emb j)
    refine congrArg (V c main_v59) ?_
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  · show V c main_v60 (((cfg3.win 1).blk t).view.emb (ix2 (0 : Fin 1) (j 1))) = V c main_v60 (ix2 (0 : Fin 1) ((((cfg3.win 2).blk t).view.emb j) 1))
    refine congrArg (V c main_v60) ?_
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega

/-- An index of the result array lies in point `t`'s block iff each coordinate lies in the block's range. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v61).slice (win3_2.rect t)).set ↔ _
  rw [View.set_slice_whole, Rect.mem_set_unit]
  exact Iff.rfl

/-- Row `r` of the result lies in the block of point `r / 10000`: the ten blocks cover the array. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, e4, e5⟩ := idx3 t
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After the call its result array holds the activation of the array the call found, under the bias row it found. -/
theorem activation3 (c : Dev nD) :
    (dat3 V c).arrAt 2 cfg3.N = Cert.Layer.hidden (M := 100000) (C := 128) (V c main_v59) (rowVec (V c main_v60)) :=
  (dat3 V c).arrAt_eq_of_cover 2 _ (fun t _ => flushed3 V c t) (cover3)

/-! ## Call 5: bias and positive part on a block of rows -/

/-- The body's stored value is the activation of its block of rows under the bias row it loads (the casts to the
    same shapes do nothing). -/
theorem pay5_eq (x : Vec Ideal S10000x128 .f32) (r : Vec Ideal S1x128 .f32) :
    k5_pay1 x r = Cert.Layer.hidden (M := 10000) (C := 128) x (rowVec r) := by
  unfold k5_pay1
  rw [shapeCast_self, shapeCast_self]
  exact Cert.Layer.hidden_unit x r (rowVec r) (fun c => rfl) _

/-- The index maps, decided over the grid: the row blocks of the operand and of the result move with the point,
    the bias row stays. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the activation of the whole array. -/
theorem flushed5 (c : Dev nD) (t : Fin cfg5.N) :
    (dat5 V c).flushed 2 t = ((cfg5.win 2).blk t).view.read (Elt Ideal)
      (Cert.Layer.hidden (M := 100000) (C := 128) (V c main_v75) (rowVec (V c main_v76))) := by
  show (cfg5.win 2).cut (grid5.coords t) ((dat5 V c).after 2 t) = _
  rw [after5_2]
  unfold out5_2
  rw [View.canon_unit_zero zeroOff]
  simp only [View.ld_unit_zero (S := S10000x128) zeroOff, View.ld_unit_zero (S := S1x128) zeroOff]
  rw [pay5_eq]
  obtain ⟨e0, e1, e2, e3, e4, e5⟩ := idx5 t
  funext j
  refine act_block (V c main_v75) (V c main_v76) _ _ j _ ?_ ?_
  · show V c main_v75 (((cfg5.win 0).blk t).view.emb j) = V c main_v75 (((cfg5.win 2).blk t).view.emb j)
    refine congrArg (V c main_v75) ?_
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 128 + 1 * (j 1).val = win5_2.index t (1 : Fin 2) * 128 + 1 * (j 1).val; omega
  · show V c main_v76 (((cfg5.win 1).blk t).view.emb (ix2 (0 : Fin 1) (j 1))) = V c main_v76 (ix2 (0 : Fin 1) ((((cfg5.win 2).blk t).view.emb j) 1))
    refine congrArg (V c main_v76) ?_
    funext a; apply Fin.ext
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega

/-- An index of the result array lies in point `t`'s block iff each coordinate lies in the block's range. -/
theorem mem_blk5 (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v77).slice (win5_2.rect t)).set ↔ _
  rw [View.set_slice_whole, Rect.mem_set_unit]
  exact Iff.rfl

/-- Row `r` of the result lies in the block of point `r / 10000`: the ten blocks cover the array. -/
theorem cover5 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨-, -, -, -, e4, e5⟩ := idx5 t
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 128 ≤ (i 1).val ∧ (i 1).val < win5_2.index t (1 : Fin 2) * 128 + 128; omega

/-- After the call its result array holds the activation of the array the call found, under the bias row it found. -/
theorem activation5 (c : Dev nD) :
    (dat5 V c).arrAt 2 cfg5.N = Cert.Layer.hidden (M := 100000) (C := 128) (V c main_v75) (rowVec (V c main_v76)) :=
  (dat5 V c).arrAt_eq_of_cover 2 _ (fun t _ => flushed5 V c t) (cover5)

end Cert.KernelIdeal.Activations

end
-- ==== Proof.Spec.lean ====
/-
  The network as one function of the argument arrays, on the extended reals.

  The graph has N = 100000 nodes and 1600000 listed edges; every node also gets a self loop, so there are
  E = 1700000 edges in all: `src e` and `dst e` are the two rows of the edge list, each followed by 0 … N-1.
  `deg e` counts, for every node, the edges that end there (a scatter-add of ones into zeros), `dinv e` is
  1/√deg where deg > 0 and 0 elsewhere, and the weight of an edge is `norm e = dinv[src] · dinv[dst]` (an index
  below zero is first wrapped around by N, as array indexing does).  One layer multiplies the node features by a
  weight matrix, gathers the product's rows at the edges' sources, scales each gathered row by its edge's weight,
  adds the rows up at the edges' targets (`agg`), adds the bias to every row and keeps the positive part.
  The result is three layers in a row.
-/
import proofs.«157408_j30855045055189_1_alg».proof.Proof.Gen.ReferenceIdeal
import proofs.«157408_j30855045055189_1_alg».proof.Proof.LibHiddenLayer

noncomputable section

namespace Cert.Spec

open Idealize.ShloMosaic Cert.ReferenceIdeal Cert.ReferenceIdeal.Facts₀

/-- Integer and float arrays of a shape, at the ideal instance. -/
abbrev IV (s : Shape) : Type := IVec s 32
abbrev FV (s : Shape) : Type := FVec Ideal s .f32

/-- A row of the edge list followed by the self loops. -/
def src (e : IV S2x1600000) : IV S1700000 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0
def dst (e : IV S2x1600000) : IV S1700000 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- An index vector as the one-column index array a gather or a scatter takes. -/
def icol (v : IV S1700000) : IV S1700000x1 := broadcastInDim S1700000x1 ![0] bcast_S1700000_S1700000x1_0 v

/-- An index below zero wrapped around by the number of nodes. -/
def wrap (v : IV S1700000) : IV S1700000 :=
  select (cmpi .slt v (broadcastInDim S1700000 ![] bcast_S_S1700000 (constantI S_ 32 0#32)))
    (addi v (broadcastInDim S1700000 ![] bcast_S_S1700000 (constantI S_ 32 100000#32))) v

/-- How many edges end at each node. -/
def deg (e : IV S2x1600000) : FV S100000 :=
  Host.scatterAdd (F := Ideal) scatter_S100000_S1700000x1_S1700000_n_0_0_1
    (broadcastInDim S100000 ![] bcast_S_S100000 (constant (F := Ideal) S_ .f32 0x00000000#32)) (icol (dst e))
    (broadcastInDim S1700000 ![] bcast_S_S1700000 (constant (F := Ideal) S_ .f32 0x3F800000#32))

/-- 1/√deg where the degree is positive, 0 elsewhere. -/
def dinv (e : IV S2x1600000) : FV S100000 :=
  select (cmpf (F := Ideal) .ogt (deg e) (broadcastInDim S100000 ![] bcast_S_S100000 (constant (F := Ideal) S_ .f32 0x00000000#32)))
    (Host.rsqrt (F := Ideal) (deg e)) (broadcastInDim S100000 ![] bcast_S_S100000 (constant (F := Ideal) S_ .f32 0x00000000#32))

/-- The weight of each edge. -/
def norm (e : IV S2x1600000) : FV S1700000 :=
  mulf (F := Ideal) (Host.gather gather_S100000_S1700000x1_S1700000_n_0_n_n_0_1_1 (dinv e) (icol (wrap (src e))))
    (Host.gather gather_S100000_S1700000x1_S1700000_n_0_n_n_0_1_1 (dinv e) (icol (wrap (dst e))))

/-- Rows gathered at the sources, scaled by the edge weights, added up at the targets. -/
def agg (e : IV S2x1600000) (h : FV S100000x128) : FV S100000x128 :=
  Host.scatterAdd (F := Ideal) scatter_S100000x128_S1700000x1_S1700000x128_1_0_0_1
    (broadcastInDim S100000x128 ![] bcast_S_S100000x128 (constant (F := Ideal) S_ .f32 0x00000000#32)) (icol (dst e))
    (mulf (F := Ideal) (Host.gather gather_S100000x128_S1700000x1_S1700000x128_1_0_n_n_0_1_1128 h (icol (wrap (src e))))
      (broadcastInDim S1700000x128 ![0, 1] bcast_S1700000x1_S1700000x128_0_1
        (broadcastInDim S1700000x1 ![0] bcast_S1700000_S1700000x1_0 (norm e))))

/-- One layer: product with the weights, aggregation over the edges, bias, positive part. -/
def layer (e : IV S2x1600000) (h : FV S100000x128) (w : FV S128x128) (b : FV S128) : FV S100000x128 :=
  Cert.Layer.hidden (agg e (Cert.Product.mm h w)) b

/-- The network: three layers. -/
def net (x : FV S100000x128) (e : IV S2x1600000) (w1 : FV S128x128) (b1 : FV S128) (w2 : FV S128x128) (b2 : FV S128)
    (w3 : FV S128x128) (b3 : FV S128) : FV S100000x128 :=
  layer e (layer e (layer e x w1 b1) w2 b2) w3 b3

end Cert.Spec

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.KernelStages.lean ====
/-
  The idealized kernel's buffers, boundary by boundary.

  Before the first call the host computes the edge lists and the edge weights once (the same operations the
  specification names).  Each layer is then: a call that leaves the product of the current features with the layer's
  weights; a stretch of host operations that gathers, scales and scatter-adds that product over the edges and lays
  the bias out as a 1×128 row; and a call that adds the row to every row and keeps the positive part.  Reading the
  boundary valuations W3 … W12 of the generated frame one after the other, the three activations' results are the
  specification's three layers, and the last one is the network.
-/
import proofs.«157408_j30855045055189_1_alg».proof.Proof.Gen.KernelIdeal.Frame
import proofs.«157408_j30855045055189_1_alg».proof.Proof.Products
import proofs.«157408_j30855045055189_1_alg».proof.Proof.Activations
import proofs.«157408_j30855045055189_1_alg».proof.Proof.Spec
import proofs.«157408_j30855045055189_1_alg».proof.Proof.LibHostWalk

set_option maxRecDepth 16384

noncomputable section

namespace Cert.KernelIdeal.Stages

open Cert.KernelIdeal Cert.KernelIdeal.Gen Cert.Spec Cert.HostWalk
open Idealize.ShloMosaic Idealize.ShloMosaic.TcCoe Idealize.SL.Sem Idealize.ShloMosaic.StableHlo Idealize.ShloMosaic.ValueIdx

/-- A length-128 vector reshaped to a 1×128 row and read back as a vector is the vector. -/
theorem rowVec_cast (b : S128.Idx → EReal) (hs : S128.ShapeCasts S1x128) :
    Cert.KernelIdeal.Activations.rowVec (shapeCast S1x128 b hs) = b := by
  funext k
  unfold Cert.KernelIdeal.Activations.rowVec
  rw [Cert.Layer.row_of_cast b hs (k 0)]
  exact congrArg b (eq_ix1 k).symm

variable (m : (ℓ : Loc nD τ sig) → Buf (Elt Ideal) ℓ) (ρ : Dev nD → PrngReg) (c : Dev nD)

/-- The features after the first and after the second layer. -/
def feat1 : FV Cert.ReferenceIdeal.S100000x128 := layer (m ((c : Thread nD τ).loc main_arg1)) (m ((c : Thread nD τ).loc main_arg0)) (m ((c : Thread nD τ).loc main_arg2)) (m ((c : Thread nD τ).loc main_arg3))
def feat2 : FV Cert.ReferenceIdeal.S100000x128 := layer (m ((c : Thread nD τ).loc main_arg1)) (feat1 m c) (m ((c : Thread nD τ).loc main_arg4)) (m ((c : Thread nD τ).loc main_arg5))

/-! ## Before the first call (boundary 3) -/

theorem K3_src : W3 m ρ c (Proc.devRef .tc main_v3) = src (m ((c : Thread nD τ).loc main_arg1)) := by
  show after hostOps0_2 (after hostOps0_1 (after hostOps0 (W0 m ρ c))) (Proc.devRef .tc main_v3) = _
  walk_back [hostOps0_2, hostOps0_1, hostOps0] <;> rfl
theorem K3_dst : W3 m ρ c (Proc.devRef .tc main_v6) = dst (m ((c : Thread nD τ).loc main_arg1)) := by
  show after hostOps0_2 (after hostOps0_1 (after hostOps0 (W0 m ρ c))) (Proc.devRef .tc main_v6) = _
  walk_back [hostOps0_2, hostOps0_1, hostOps0] <;> rfl
theorem K3_norm : W3 m ρ c (Proc.devRef .tc main_v29) = norm (m ((c : Thread nD τ).loc main_arg1)) := by
  show after hostOps0_2 (after hostOps0_1 (after hostOps0 (W0 m ρ c))) (Proc.devRef .tc main_v29) = _
  walk_back [hostOps0_2, hostOps0_1, hostOps0] <;> rfl
theorem K3_arg0 : W3 m ρ c (Proc.devRef .tc main_arg0) = (m ((c : Thread nD τ).loc main_arg0)) := by
  show after hostOps0_2 (after hostOps0_1 (after hostOps0 (W0 m ρ c))) (Proc.devRef .tc main_arg0) = _
  walk_back [hostOps0_2, hostOps0_1, hostOps0] <;> rfl
theorem K3_arg2 : W3 m ρ c (Proc.devRef .tc main_arg2) = (m ((c : Thread nD τ).loc main_arg2)) := by
  show after hostOps0_2 (after hostOps0_1 (after hostOps0 (W0 m ρ c))) (Proc.devRef .tc main_arg2) = _
  walk_back [hostOps0_2, hostOps0_1, hostOps0] <;> rfl
theorem K3_arg3 : W3 m ρ c (Proc.devRef .tc main_arg3) = (m ((c : Thread nD τ).loc main_arg3)) := by
  show after hostOps0_2 (after hostOps0_1 (after hostOps0 (W0 m ρ c))) (Proc.devRef .tc main_arg3) = _
  walk_back [hostOps0_2, hostOps0_1, hostOps0] <;> rfl
theorem K3_arg4 : W3 m ρ c (Proc.devRef .tc main_arg4) = (m ((c : Thread nD τ).loc main_arg4)) := by
  show after hostOps0_2 (after hostOps0_1 (after hostOps0 (W0 m ρ c))) (Proc.devRef .tc main_arg4) = _
  walk_back [hostOps0_2, hostOps0_1, hostOps0] <;> rfl
theorem K3_arg5 : W3 m ρ c (Proc.devRef .tc main_arg5) = (m ((c : Thread nD τ).loc main_arg5)) := by
  show after hostOps0_2 (after hostOps0_1 (after hostOps0 (W0 m ρ c))) (Proc.devRef .tc main_arg5) = _
  walk_back [hostOps0_2, hostOps0_1, hostOps0] <;> rfl
theorem K3_arg6 : W3 m ρ c (Proc.devRef .tc main_arg6) = (m ((c : Thread nD τ).loc main_arg6)) := by
  show after hostOps0_2 (after hostOps0_1 (after hostOps0 (W0 m ρ c))) (Proc.devRef .tc main_arg6) = _
  walk_back [hostOps0_2, hostOps0_1, hostOps0] <;> rfl
theorem K3_arg7 : W3 m ρ c (Proc.devRef .tc main_arg7) = (m ((c : Thread nD τ).loc main_arg7)) := by
  show after hostOps0_2 (after hostOps0_1 (after hostOps0 (W0 m ρ c))) (Proc.devRef .tc main_arg7) = _
  walk_back [hostOps0_2, hostOps0_1, hostOps0] <;> rfl

/-! ## Layer 1 -/

/-- After the product call (boundary 4): the product of the features with the layer's weights. -/
theorem K4_h : W4 m ρ c (Proc.devRef .tc main_v30) = Cert.Product.mm (m ((c : Thread nD τ).loc main_arg0)) (m ((c : Thread nD τ).loc main_arg2)) := by
  refine (W4_arr m ρ c 2).trans ((Cert.KernelIdeal.Products.product0 (V3 m ρ) c).trans ?_)
  show Cert.Product.mm (W3 m ρ c (Proc.devRef .tc main_arg0)) (W3 m ρ c (Proc.devRef .tc main_arg2)) = _
  rw [K3_arg0 m ρ c, K3_arg2 m ρ c]
theorem K4_src : W4 m ρ c (Proc.devRef .tc main_v3) = src (m ((c : Thread nD τ).loc main_arg1)) :=
  (W4_of_ne m ρ c main_v3 (by decide)).trans (K3_src m ρ c)
theorem K4_dst : W4 m ρ c (Proc.devRef .tc main_v6) = dst (m ((c : Thread nD τ).loc main_arg1)) :=
  (W4_of_ne m ρ c main_v6 (by decide)).trans (K3_dst m ρ c)
theorem K4_norm : W4 m ρ c (Proc.devRef .tc main_v29) = norm (m ((c : Thread nD τ).loc main_arg1)) :=
  (W4_of_ne m ρ c main_v29 (by decide)).trans (K3_norm m ρ c)
theorem K4_arg3 : W4 m ρ c (Proc.devRef .tc main_arg3) = (m ((c : Thread nD τ).loc main_arg3)) :=
  (W4_of_ne m ρ c main_arg3 (by decide)).trans (K3_arg3 m ρ c)
theorem K4_arg4 : W4 m ρ c (Proc.devRef .tc main_arg4) = (m ((c : Thread nD τ).loc main_arg4)) :=
  (W4_of_ne m ρ c main_arg4 (by decide)).trans (K3_arg4 m ρ c)
theorem K4_arg5 : W4 m ρ c (Proc.devRef .tc main_arg5) = (m ((c : Thread nD τ).loc main_arg5)) :=
  (W4_of_ne m ρ c main_arg5 (by decide)).trans (K3_arg5 m ρ c)
theorem K4_arg6 : W4 m ρ c (Proc.devRef .tc main_arg6) = (m ((c : Thread nD τ).loc main_arg6)) :=
  (W4_of_ne m ρ c main_arg6 (by decide)).trans (K3_arg6 m ρ c)
theorem K4_arg7 : W4 m ρ c (Proc.devRef .tc main_arg7) = (m ((c : Thread nD τ).loc main_arg7)) :=
  (W4_of_ne m ρ c main_arg7 (by decide)).trans (K3_arg7 m ρ c)

/-- After the host stretch (boundary 5): the aggregate over the edges, and the bias as a row. -/
theorem K5_agg : W5 m ρ c (Proc.devRef .tc main_v43) = agg (m ((c : Thread nD τ).loc main_arg1)) (Cert.Product.mm (m ((c : Thread nD τ).loc main_arg0)) (m ((c : Thread nD τ).loc main_arg2))) := by
  show after hostOps1 (W4 m ρ c) (Proc.devRef .tc main_v43) = _
  walk_back [hostOps1, K4_src m ρ c, K4_dst m ρ c, K4_norm m ρ c, K4_h m ρ c] <;> rfl
theorem K5_row : W5 m ρ c (Proc.devRef .tc main_v44) = shapeCast S1x128 (m ((c : Thread nD τ).loc main_arg3)) shapeCasts_S128_S1x128 := by
  show after hostOps1 (W4 m ρ c) (Proc.devRef .tc main_v44) = _
  walk_back [hostOps1, K4_arg3 m ρ c] <;> rfl
theorem K5_src : W5 m ρ c (Proc.devRef .tc main_v3) = src (m ((c : Thread nD τ).loc main_arg1)) := by
  show after hostOps1 (W4 m ρ c) (Proc.devRef .tc main_v3) = _
  walk_back [hostOps1, K4_src m ρ c] <;> rfl
theorem K5_dst : W5 m ρ c (Proc.devRef .tc main_v6) = dst (m ((c : Thread nD τ).loc main_arg1)) := by
  show after hostOps1 (W4 m ρ c) (Proc.devRef .tc main_v6) = _
  walk_back [hostOps1, K4_dst m ρ c] <;> rfl
theorem K5_norm : W5 m ρ c (Proc.devRef .tc main_v29) = norm (m ((c : Thread nD τ).loc main_arg1)) := by
  show after hostOps1 (W4 m ρ c) (Proc.devRef .tc main_v29) = _
  walk_back [hostOps1, K4_norm m ρ c] <;> rfl
theorem K5_arg4 : W5 m ρ c (Proc.devRef .tc main_arg4) = (m ((c : Thread nD τ).loc main_arg4)) := by
  show after hostOps1 (W4 m ρ c) (Proc.devRef .tc main_arg4) = _
  walk_back [hostOps1, K4_arg4 m ρ c] <;> rfl
theorem K5_arg5 : W5 m ρ c (Proc.devRef .tc main_arg5) = (m ((c : Thread nD τ).loc main_arg5)) := by
  show after hostOps1 (W4 m ρ c) (Proc.devRef .tc main_arg5) = _
  walk_back [hostOps1, K4_arg5 m ρ c] <;> rfl
theorem K5_arg6 : W5 m ρ c (Proc.devRef .tc main_arg6) = (m ((c : Thread nD τ).loc main_arg6)) := by
  show after hostOps1 (W4 m ρ c) (Proc.devRef .tc main_arg6) = _
  walk_back [hostOps1, K4_arg6 m ρ c] <;> rfl
theorem K5_arg7 : W5 m ρ c (Proc.devRef .tc main_arg7) = (m ((c : Thread nD τ).loc main_arg7)) := by
  show after hostOps1 (W4 m ρ c) (Proc.devRef .tc main_arg7) = _
  walk_back [hostOps1, K4_arg7 m ρ c] <;> rfl

/-- After the activation call (boundary 6): the layer's output. -/
theorem K6_h : W6 m ρ c (Proc.devRef .tc main_v45) = feat1 m c := by
  refine (W6_arr m ρ c 2).trans ((Cert.KernelIdeal.Activations.activation1 (V5 m ρ) c).trans ?_)
  show Cert.Layer.hidden (W5 m ρ c (Proc.devRef .tc main_v43)) (Cert.KernelIdeal.Activations.rowVec (W5 m ρ c (Proc.devRef .tc main_v44))) = _
  rw [K5_agg m ρ c, K5_row m ρ c, rowVec_cast]
  rfl
theorem K6_src : W6 m ρ c (Proc.devRef .tc main_v3) = src (m ((c : Thread nD τ).loc main_arg1)) :=
  (W6_of_ne m ρ c main_v3 (by decide)).trans (K5_src m ρ c)
theorem K6_dst : W6 m ρ c (Proc.devRef .tc main_v6) = dst (m ((c : Thread nD τ).loc main_arg1)) :=
  (W6_of_ne m ρ c main_v6 (by decide)).trans (K5_dst m ρ c)
theorem K6_norm : W6 m ρ c (Proc.devRef .tc main_v29) = norm (m ((c : Thread nD τ).loc main_arg1)) :=
  (W6_of_ne m ρ c main_v29 (by decide)).trans (K5_norm m ρ c)
theorem K6_arg4 : W6 m ρ c (Proc.devRef .tc main_arg4) = (m ((c : Thread nD τ).loc main_arg4)) :=
  (W6_of_ne m ρ c main_arg4 (by decide)).trans (K5_arg4 m ρ c)
theorem K6_arg5 : W6 m ρ c (Proc.devRef .tc main_arg5) = (m ((c : Thread nD τ).loc main_arg5)) :=
  (W6_of_ne m ρ c main_arg5 (by decide)).trans (K5_arg5 m ρ c)
theorem K6_arg6 : W6 m ρ c (Proc.devRef .tc main_arg6) = (m ((c : Thread nD τ).loc main_arg6)) :=
  (W6_of_ne m ρ c main_arg6 (by decide)).trans (K5_arg6 m ρ c)
theorem K6_arg7 : W6 m ρ c (Proc.devRef .tc main_arg7) = (m ((c : Thread nD τ).loc main_arg7)) :=
  (W6_of_ne m ρ c main_arg7 (by decide)).trans (K5_arg7 m ρ c)

/-! ## Layer 2 -/

/-- After the product call (boundary 7): the product of the features with the layer's weights. -/
theorem K7_h : W7 m ρ c (Proc.devRef .tc main_v46) = Cert.Product.mm (feat1 m c) (m ((c : Thread nD τ).loc main_arg4)) := by
  refine (W7_arr m ρ c 2).trans ((Cert.KernelIdeal.Products.product2 (V6 m ρ) c).trans ?_)
  show Cert.Product.mm (W6 m ρ c (Proc.devRef .tc main_v45)) (W6 m ρ c (Proc.devRef .tc main_arg4)) = _
  rw [K6_h m ρ c, K6_arg4 m ρ c]
theorem K7_src : W7 m ρ c (Proc.devRef .tc main_v3) = src (m ((c : Thread nD τ).loc main_arg1)) :=
  (W7_of_ne m ρ c main_v3 (by decide)).trans (K6_src m ρ c)
theorem K7_dst : W7 m ρ c (Proc.devRef .tc main_v6) = dst (m ((c : Thread nD τ).loc main_arg1)) :=
  (W7_of_ne m ρ c main_v6 (by decide)).trans (K6_dst m ρ c)
theorem K7_norm : W7 m ρ c (Proc.devRef .tc main_v29) = norm (m ((c : Thread nD τ).loc main_arg1)) :=
  (W7_of_ne m ρ c main_v29 (by decide)).trans (K6_norm m ρ c)
theorem K7_arg5 : W7 m ρ c (Proc.devRef .tc main_arg5) = (m ((c : Thread nD τ).loc main_arg5)) :=
  (W7_of_ne m ρ c main_arg5 (by decide)).trans (K6_arg5 m ρ c)
theorem K7_arg6 : W7 m ρ c (Proc.devRef .tc main_arg6) = (m ((c : Thread nD τ).loc main_arg6)) :=
  (W7_of_ne m ρ c main_arg6 (by decide)).trans (K6_arg6 m ρ c)
theorem K7_arg7 : W7 m ρ c (Proc.devRef .tc main_arg7) = (m ((c : Thread nD τ).loc main_arg7)) :=
  (W7_of_ne m ρ c main_arg7 (by decide)).trans (K6_arg7 m ρ c)

/-- After the host stretch (boundary 8): the aggregate over the edges, and the bias as a row. -/
theorem K8_agg : W8 m ρ c (Proc.devRef .tc main_v59) = agg (m ((c : Thread nD τ).loc main_arg1)) (Cert.Product.mm (feat1 m c) (m ((c : Thread nD τ).loc main_arg4))) := by
  show after hostOps3 (W7 m ρ c) (Proc.devRef .tc main_v59) = _
  walk_back [hostOps3, K7_src m ρ c, K7_dst m ρ c, K7_norm m ρ c, K7_h m ρ c] <;> rfl
theorem K8_row : W8 m ρ c (Proc.devRef .tc main_v60) = shapeCast S1x128 (m ((c : Thread nD τ).loc main_arg5)) shapeCasts_S128_S1x128 := by
  show after hostOps3 (W7 m ρ c) (Proc.devRef .tc main_v60) = _
  walk_back [hostOps3, K7_arg5 m ρ c] <;> rfl
theorem K8_src : W8 m ρ c (Proc.devRef .tc main_v3) = src (m ((c : Thread nD τ).loc main_arg1)) := by
  show after hostOps3 (W7 m ρ c) (Proc.devRef .tc main_v3) = _
  walk_back [hostOps3, K7_src m ρ c] <;> rfl
theorem K8_dst : W8 m ρ c (Proc.devRef .tc main_v6) = dst (m ((c : Thread nD τ).loc main_arg1)) := by
  show after hostOps3 (W7 m ρ c) (Proc.devRef .tc main_v6) = _
  walk_back [hostOps3, K7_dst m ρ c] <;> rfl
theorem K8_norm : W8 m ρ c (Proc.devRef .tc main_v29) = norm (m ((c : Thread nD τ).loc main_arg1)) := by
  show after hostOps3 (W7 m ρ c) (Proc.devRef .tc main_v29) = _
  walk_back [hostOps3, K7_norm m ρ c] <;> rfl
theorem K8_arg6 : W8 m ρ c (Proc.devRef .tc main_arg6) = (m ((c : Thread nD τ).loc main_arg6)) := by
  show after hostOps3 (W7 m ρ c) (Proc.devRef .tc main_arg6) = _
  walk_back [hostOps3, K7_arg6 m ρ c] <;> rfl
theorem K8_arg7 : W8 m ρ c (Proc.devRef .tc main_arg7) = (m ((c : Thread nD τ).loc main_arg7)) := by
  show after hostOps3 (W7 m ρ c) (Proc.devRef .tc main_arg7) = _
  walk_back [hostOps3, K7_arg7 m ρ c] <;> rfl

/-- After the activation call (boundary 9): the layer's output. -/
theorem K9_h : W9 m ρ c (Proc.devRef .tc main_v61) = feat2 m c := by
  refine (W9_arr m ρ c 2).trans ((Cert.KernelIdeal.Activations.activation3 (V8 m ρ) c).trans ?_)
  show Cert.Layer.hidden (W8 m ρ c (Proc.devRef .tc main_v59)) (Cert.KernelIdeal.Activations.rowVec (W8 m ρ c (Proc.devRef .tc main_v60))) = _
  rw [K8_agg m ρ c, K8_row m ρ c, rowVec_cast]
  rfl
theorem K9_src : W9 m ρ c (Proc.devRef .tc main_v3) = src (m ((c : Thread nD τ).loc main_arg1)) :=
  (W9_of_ne m ρ c main_v3 (by decide)).trans (K8_src m ρ c)
theorem K9_dst : W9 m ρ c (Proc.devRef .tc main_v6) = dst (m ((c : Thread nD τ).loc main_arg1)) :=
  (W9_of_ne m ρ c main_v6 (by decide)).trans (K8_dst m ρ c)
theorem K9_norm : W9 m ρ c (Proc.devRef .tc main_v29) = norm (m ((c : Thread nD τ).loc main_arg1)) :=
  (W9_of_ne m ρ c main_v29 (by decide)).trans (K8_norm m ρ c)
theorem K9_arg6 : W9 m ρ c (Proc.devRef .tc main_arg6) = (m ((c : Thread nD τ).loc main_arg6)) :=
  (W9_of_ne m ρ c main_arg6 (by decide)).trans (K8_arg6 m ρ c)
theorem K9_arg7 : W9 m ρ c (Proc.devRef .tc main_arg7) = (m ((c : Thread nD τ).loc main_arg7)) :=
  (W9_of_ne m ρ c main_arg7 (by decide)).trans (K8_arg7 m ρ c)

/-! ## Layer 3 -/

/-- After the product call (boundary 10): the product of the features with the layer's weights. -/
theorem K10_h : W10 m ρ c (Proc.devRef .tc main_v62) = Cert.Product.mm (feat2 m c) (m ((c : Thread nD τ).loc main_arg6)) := by
  refine (W10_arr m ρ c 2).trans ((Cert.KernelIdeal.Products.product4 (V9 m ρ) c).trans ?_)
  show Cert.Product.mm (W9 m ρ c (Proc.devRef .tc main_v61)) (W9 m ρ c (Proc.devRef .tc main_arg6)) = _
  rw [K9_h m ρ c, K9_arg6 m ρ c]
theorem K10_src : W10 m ρ c (Proc.devRef .tc main_v3) = src (m ((c : Thread nD τ).loc main_arg1)) :=
  (W10_of_ne m ρ c main_v3 (by decide)).trans (K9_src m ρ c)
theorem K10_dst : W10 m ρ c (Proc.devRef .tc main_v6) = dst (m ((c : Thread nD τ).loc main_arg1)) :=
  (W10_of_ne m ρ c main_v6 (by decide)).trans (K9_dst m ρ c)
theorem K10_norm : W10 m ρ c (Proc.devRef .tc main_v29) = norm (m ((c : Thread nD τ).loc main_arg1)) :=
  (W10_of_ne m ρ c main_v29 (by decide)).trans (K9_norm m ρ c)
theorem K10_arg7 : W10 m ρ c (Proc.devRef .tc main_arg7) = (m ((c : Thread nD τ).loc main_arg7)) :=
  (W10_of_ne m ρ c main_arg7 (by decide)).trans (K9_arg7 m ρ c)

/-- After the host stretch (boundary 11): the aggregate over the edges, and the bias as a row. -/
theorem K11_agg : W11 m ρ c (Proc.devRef .tc main_v75) = agg (m ((c : Thread nD τ).loc main_arg1)) (Cert.Product.mm (feat2 m c) (m ((c : Thread nD τ).loc main_arg6))) := by
  show after hostOps5 (W10 m ρ c) (Proc.devRef .tc main_v75) = _
  walk_back [hostOps5, K10_src m ρ c, K10_dst m ρ c, K10_norm m ρ c, K10_h m ρ c] <;> rfl
theorem K11_row : W11 m ρ c (Proc.devRef .tc main_v76) = shapeCast S1x128 (m ((c : Thread nD τ).loc main_arg7)) shapeCasts_S128_S1x128 := by
  show after hostOps5 (W10 m ρ c) (Proc.devRef .tc main_v76) = _
  walk_back [hostOps5, K10_arg7 m ρ c] <;> rfl

/-- After the activation call (boundary 12): the layer's output. -/
theorem K12_h : W12 m ρ c (Proc.devRef .tc main_v77) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ((Cert.KernelIdeal.Activations.activation5 (V11 m ρ) c).trans ?_)
  show Cert.Layer.hidden (W11 m ρ c (Proc.devRef .tc main_v75)) (Cert.KernelIdeal.Activations.rowVec (W11 m ρ c (Proc.devRef .tc main_v76))) = _
  rw [K11_agg m ρ c, K11_row m ρ c, rowVec_cast]
  rfl

end Cert.KernelIdeal.Stages

end
-- ==== Proof.RefLine.lean ====
/-
  The reference program's run, read back.

  The reference is a straight line of 147 host operations (the bodies of the two small functions it calls stand at
  their call sites).  Every weakly fair execution terminates, and every buffer ends at the fold of the operations'
  results over the launch contents.  The line is cut in four stretches — the graph quantities, then one stretch per
  layer — so that a buffer can be read one stretch at a time: the fold over the whole line is the fold over the
  last stretch of the fold over the stretches before it.
-/
import proofs.«157408_j30855045055189_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The whole line, in program order. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (.of main_cst_2 : TRef sig ⟨S_, .f32⟩) (.of main_call0_v0 : TRef sig ⟨S_, .f32⟩) id,
    TRef.unary (.of main_call0_v0 : TRef sig ⟨S_, .f32⟩) (.of main_call0_v1 : TRef sig ⟨S100000, .f32⟩) (broadcastInDim S100000 ![] bcast_S_S100000),
    TRef.ternary (.of main_v12 : TRef sig ⟨S100000, .i1⟩) (.of main_v13 : TRef sig ⟨S100000, .f32⟩) (.of main_call0_v1 : TRef sig ⟨S100000, .f32⟩) (.of main_v14 : TRef sig ⟨S100000, .f32⟩) select,
    binary main_arg0 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v14 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v15 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (.of main_call1_cst : TRef sig ⟨S_, .f32⟩) (constant S_ .f32 0x00000000#32),
    TRef.unary (.of main_call1_cst : TRef sig ⟨S_, .f32⟩) (.of main_call1_v0 : TRef sig ⟨S100000x128, .f32⟩) (broadcastInDim S100000x128 ![] bcast_S_S100000x128),
    TRef.binary (.of main_v46 : TRef sig ⟨S100000x128, .f32⟩) (.of main_call1_v0 : TRef sig ⟨S100000x128, .f32⟩) (.of main_v47 : TRef sig ⟨S100000x128, .f32⟩) maximumf,
    binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v14 main_v54 main_v55 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_11 (constantI S_ 32 0#32),
    unary main_c_11 main_v56 (broadcastInDim S1700000 ![] bcast_S_S1700000 : (⟨S_, .i32⟩ : BufTy).Contents (Elt F) → (⟨S1700000, .i32⟩ : BufTy).Contents (Elt F)),
    binary main_v6 main_v56 main_v57 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v58 (broadcastInDim S1700000 ![] bcast_S_S1700000 : (⟨S_, .i32⟩ : BufTy).Contents (Elt F) → (⟨S1700000, .i32⟩ : BufTy).Contents (Elt F)),
    binary main_v6 main_v58 main_v59 (addi : (⟨S1700000, .i32⟩ : BufTy).Contents (Elt F) → (⟨S1700000, .i32⟩ : BufTy).Contents (Elt F) → (⟨S1700000, .i32⟩ : BufTy).Contents (Elt F)),
    ternary main_v57 main_v59 main_v6 main_v60 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v60 main_v61 (broadcastInDim S1700000x1 ![0] bcast_S1700000_S1700000x1_0 : (⟨S1700000, .i32⟩ : BufTy).Contents (Elt F) → (⟨S1700000x1, .i32⟩ : BufTy).Contents (Elt F)),
    binary main_v14 main_v61 main_v62 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v55 main_v62 main_v63 (mulf : (⟨S1700000, .f32⟩ : BufTy).Contents (Elt F) → (⟨S1700000, .f32⟩ : BufTy).Contents (Elt F) → (⟨S1700000, .f32⟩ : BufTy).Contents (Elt F)),
    nullary main_c_13 (constantI S_ 32 0#32),
    unary main_c_13 main_v64 (broadcastInDim S1700000 ![] bcast_S_S1700000 : (⟨S_, .i32⟩ : BufTy).Contents (Elt F) → (⟨S1700000, .i32⟩ : BufTy).Contents (Elt F)),
    binary main_v3 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v66 (broadcastInDim S1700000 ![] bcast_S_S1700000 : (⟨S_, .i32⟩ : BufTy).Contents (Elt F) → (⟨S1700000, .i32⟩ : BufTy).Contents (Elt F)),
    binary main_v3 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v3 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v48 main_v69 main_v70 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v63 main_v71 (broadcastInDim S1700000x1 ![0] bcast_S1700000_S1700000x1_0 : (⟨S1700000, .f32⟩ : BufTy).Contents (Elt F) → (⟨S1700000x1, .f32⟩ : BufTy).Contents (Elt F)),
    unary main_v71 main_v72 (broadcastInDim S1700000x128 ![0, 1] bcast_S1700000x1_S1700000x128_0_1 : (⟨S1700000x1, .f32⟩ : BufTy).Contents (Elt F) → (⟨S1700000x128, .f32⟩ : BufTy).Contents (Elt F)),
    binary main_v70 main_v72 main_v73 (mulf : (⟨S1700000x128, .f32⟩ : BufTy).Contents (Elt F) → (⟨S1700000x128, .f32⟩ : BufTy).Contents (Elt F) → (⟨S1700000x128, .f32⟩ : BufTy).Contents (Elt F)),
    nullary main_cst_15 (constant S_ .f32 0x00000000#32),
    unary main_cst_15 main_v74 (broadcastInDim S100000x128 ![] bcast_S_S100000x128 : (⟨S_, .f32⟩ : BufTy).Contents (Elt F) → (⟨S100000x128, .f32⟩ : BufTy).Contents (Elt F)),
    unary main_v6 main_v75 (broadcastInDim S1700000x1 ![0] bcast_S1700000_S1700000x1_0 : (⟨S1700000, .i32⟩ : BufTy).Contents (Elt F) → (⟨S1700000x1, .i32⟩ : BufTy).Contents (Elt F)),
    ternary main_v74 main_v75 main_v73 main_v76 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v76 main_v78 main_v79 (addf : (⟨S100000x128, .f32⟩ : BufTy).Contents (Elt F) → (⟨S100000x128, .f32⟩ : BufTy).Contents (Elt F) → (⟨S100000x128, .f32⟩ : BufTy).Contents (Elt F)),
    TRef.nullary (.of main_call2_cst : TRef sig ⟨S_, .f32⟩) (constant S_ .f32 0x00000000#32),
    TRef.unary (.of main_call2_cst : TRef sig ⟨S_, .f32⟩) (.of main_call2_v0 : TRef sig ⟨S100000x128, .f32⟩) (broadcastInDim S100000x128 ![] bcast_S_S100000x128),
    TRef.binary (.of main_v79 : TRef sig ⟨S100000x128, .f32⟩) (.of main_call2_v0 : TRef sig ⟨S100000x128, .f32⟩) (.of main_v80 : TRef sig ⟨S100000x128, .f32⟩) maximumf,
    binary main_v80 main_arg6 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_16 (constantI S_ 32 0#32),
    unary main_c_16 main_v82 (broadcastInDim S1700000 ![] bcast_S_S1700000 : (⟨S_, .i32⟩ : BufTy).Contents (Elt F) → (⟨S1700000, .i32⟩ : BufTy).Contents (Elt F)),
    binary main_v3 main_v82 main_v83 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v84 (broadcastInDim S1700000 ![] bcast_S_S1700000 : (⟨S_, .i32⟩ : BufTy).Contents (Elt F) → (⟨S1700000, .i32⟩ : BufTy).Contents (Elt F)),
    binary main_v3 main_v84 main_v85 (addi : (⟨S1700000, .i32⟩ : BufTy).Contents (Elt F) → (⟨S1700000, .i32⟩ : BufTy).Contents (Elt F) → (⟨S1700000, .i32⟩ : BufTy).Contents (Elt F)),
    ternary main_v83 main_v85 main_v3 main_v86 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v86 main_v87 (broadcastInDim S1700000x1 ![0] bcast_S1700000_S1700000x1_0 : (⟨S1700000, .i32⟩ : BufTy).Contents (Elt F) → (⟨S1700000x1, .i32⟩ : BufTy).Contents (Elt F)),
    binary main_v14 main_v87 main_v88 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_18 (constantI S_ 32 0#32),
    unary main_c_18 main_v89 (broadcastInDim S1700000 ![] bcast_S_S1700000 : (⟨S_, .i32⟩ : BufTy).Contents (Elt F) → (⟨S1700000, .i32⟩ : BufTy).Contents (Elt F)),
    binary main_v6 main_v89 main_v90 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v91 (broadcastInDim S1700000 ![] bcast_S_S1700000 : (⟨S_, .i32⟩ : BufTy).Contents (Elt F) → (⟨S1700000, .i32⟩ : BufTy).Contents (Elt F)),
    binary main_v6 main_v91 main_v92 (addi : (⟨S1700000, .i32⟩ : BufTy).Contents (Elt F) → (⟨S1700000, .i32⟩ : BufTy).Contents (Elt F) → (⟨S1700000, .i32⟩ : BufTy).Contents (Elt F)),
    ternary main_v90 main_v92 main_v6 main_v93 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v93 main_v94 (broadcastInDim S1700000x1 ![0] bcast_S1700000_S1700000x1_0 : (⟨S1700000, .i32⟩ : BufTy).Contents (Elt F) → (⟨S1700000x1, .i32⟩ : BufTy).Contents (Elt F)),
    binary main_v14 main_v94 main_v95 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v88 main_v95 main_v96 (mulf : (⟨S1700000, .f32⟩ : BufTy).Contents (Elt F) → (⟨S1700000, .f32⟩ : BufTy).Contents (Elt F) → (⟨S1700000, .f32⟩ : BufTy).Contents (Elt F)),
    nullary main_c_20 (constantI S_ 32 0#32),
    unary main_c_20 main_v97 (broadcastInDim S1700000 ![] bcast_S_S1700000 : (⟨S_, .i32⟩ : BufTy).Contents (Elt F) → (⟨S1700000, .i32⟩ : BufTy).Contents (Elt F)),
    binary main_v3 main_v97 main_v98 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v99 (broadcastInDim S1700000 ![] bcast_S_S1700000 : (⟨S_, .i32⟩ : BufTy).Contents (Elt F) → (⟨S1700000, .i32⟩ : BufTy).Contents (Elt F)),
    binary main_v3 main_v99 main_v100 (addi : (⟨S1700000, .i32⟩ : BufTy).Contents (Elt F) → (⟨S1700000, .i32⟩ : BufTy).Contents (Elt F) → (⟨S1700000, .i32⟩ : BufTy).Contents (Elt F)),
    ternary main_v98 main_v100 main_v3 main_v101 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v101 main_v102 (broadcastInDim S1700000x1 ![0] bcast_S1700000_S1700000x1_0 : (⟨S1700000, .i32⟩ : BufTy).Contents (Elt F) → (⟨S1700000x1, .i32⟩ : BufTy).Contents (Elt F)),
    binary main_v81 main_v102 main_v103 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v96 main_v104 (broadcastInDim S1700000x1 ![0] bcast_S1700000_S1700000x1_0 : (⟨S1700000, .f32⟩ : BufTy).Contents (Elt F) → (⟨S1700000x1, .f32⟩ : BufTy).Contents (Elt F)),
    unary main_v104 main_v105 (broadcastInDim S1700000x128 ![0, 1] bcast_S1700000x1_S1700000x128_0_1 : (⟨S1700000x1, .f32⟩ : BufTy).Contents (Elt F) → (⟨S1700000x128, .f32⟩ : BufTy).Contents (Elt F)),
    binary main_v103 main_v105 main_v106 (mulf : (⟨S1700000x128, .f32⟩ : BufTy).Contents (Elt F) → (⟨S1700000x128, .f32⟩ : BufTy).Contents (Elt F) → (⟨S1700000x128, .f32⟩ : BufTy).Contents (Elt F)),
    nullary main_cst_22 (constant S_ .f32 0x00000000#32),
    unary main_cst_22 main_v107 (broadcastInDim S100000x128 ![] bcast_S_S100000x128 : (⟨S_, .f32⟩ : BufTy).Contents (Elt F) → (⟨S100000x128, .f32⟩ : BufTy).Contents (Elt F)),
    unary main_v6 main_v108 (broadcastInDim S1700000x1 ![0] bcast_S1700000_S1700000x1_0 : (⟨S1700000, .i32⟩ : BufTy).Contents (Elt F) → (⟨S1700000x1, .i32⟩ : BufTy).Contents (Elt F)),
    ternary main_v107 main_v108 main_v106 main_v109 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg7 main_v110 (broadcastInDim S1x128 ![1] bcast_S128_S1x128_1 : (⟨S128, .f32⟩ : BufTy).Contents (Elt F) → (⟨S1x128, .f32⟩ : BufTy).Contents (Elt F)),
    unary main_v110 main_v111 (broadcastInDim S100000x128 ![0, 1] bcast_S1x128_S100000x128_0_1 : (⟨S1x128, .f32⟩ : BufTy).Contents (Elt F) → (⟨S100000x128, .f32⟩ : BufTy).Contents (Elt F)),
    binary main_v109 main_v111 main_v112 (addf : (⟨S100000x128, .f32⟩ : BufTy).Contents (Elt F) → (⟨S100000x128, .f32⟩ : BufTy).Contents (Elt F) → (⟨S100000x128, .f32⟩ : BufTy).Contents (Elt F)),
    TRef.nullary (.of main_call3_cst : TRef sig ⟨S_, .f32⟩) (constant S_ .f32 0x00000000#32),
    TRef.unary (.of main_call3_cst : TRef sig ⟨S_, .f32⟩) (.of main_call3_v0 : TRef sig ⟨S100000x128, .f32⟩) (broadcastInDim S100000x128 ![] bcast_S_S100000x128),
    TRef.binary (.of main_v112 : TRef sig ⟨S100000x128, .f32⟩) (.of main_call3_v0 : TRef sig ⟨S100000x128, .f32⟩) (.of main_v113 : TRef sig ⟨S100000x128, .f32⟩) maximumf ]

/-- The operations that build the edge lists, the degrees and their inverse square roots (statements up to the call of the selection function). -/
abbrev opsGraph : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (.of main_cst_2 : TRef sig ⟨S_, .f32⟩) (.of main_call0_v0 : TRef sig ⟨S_, .f32⟩) id,
    TRef.unary (.of main_call0_v0 : TRef sig ⟨S_, .f32⟩) (.of main_call0_v1 : TRef sig ⟨S100000, .f32⟩) (broadcastInDim S100000 ![] bcast_S_S100000),
    TRef.ternary (.of main_v12 : TRef sig ⟨S100000, .i1⟩) (.of main_v13 : TRef sig ⟨S100000, .f32⟩) (.of main_call0_v1 : TRef sig ⟨S100000, .f32⟩) (.of main_v14 : TRef sig ⟨S100000, .f32⟩) select ]

/-- The first layer's operations: the product with the first weight matrix up to its rectification. -/
abbrev opsLayer1 : List (HloOp τ sig (Elt F)) :=
  [ binary main_arg0 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v14 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v15 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (.of main_call1_cst : TRef sig ⟨S_, .f32⟩) (constant S_ .f32 0x00000000#32),
    TRef.unary (.of main_call1_cst : TRef sig ⟨S_, .f32⟩) (.of main_call1_v0 : TRef sig ⟨S100000x128, .f32⟩) (broadcastInDim S100000x128 ![] bcast_S_S100000x128),
    TRef.binary (.of main_v46 : TRef sig ⟨S100000x128, .f32⟩) (.of main_call1_v0 : TRef sig ⟨S100000x128, .f32⟩) (.of main_v47 : TRef sig ⟨S100000x128, .f32⟩) maximumf ]

/-- The second layer's operations. -/
abbrev opsLayer2 : List (HloOp τ sig (Elt F)) :=
  [ binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v14 main_v54 main_v55 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_11 (constantI S_ 32 0#32),
    unary main_c_11 main_v56 (broadcastInDim S1700000 ![] bcast_S_S1700000 : (⟨S_, .i32⟩ : BufTy).Contents (Elt F) → (⟨S1700000, .i32⟩ : BufTy).Contents (Elt F)),
    binary main_v6 main_v56 main_v57 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v58 (broadcastInDim S1700000 ![] bcast_S_S1700000 : (⟨S_, .i32⟩ : BufTy).Contents (Elt F) → (⟨S1700000, .i32⟩ : BufTy).Contents (Elt F)),
    binary main_v6 main_v58 main_v59 (addi : (⟨S1700000, .i32⟩ : BufTy).Contents (Elt F) → (⟨S1700000, .i32⟩ : BufTy).Contents (Elt F) → (⟨S1700000, .i32⟩ : BufTy).Contents (Elt F)),
    ternary main_v57 main_v59 main_v6 main_v60 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v60 main_v61 (broadcastInDim S1700000x1 ![0] bcast_S1700000_S1700000x1_0 : (⟨S1700000, .i32⟩ : BufTy).Contents (Elt F) → (⟨S1700000x1, .i32⟩ : BufTy).Contents (Elt F)),
    binary main_v14 main_v61 main_v62 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v55 main_v62 main_v63 (mulf : (⟨S1700000, .f32⟩ : BufTy).Contents (Elt F) → (⟨S1700000, .f32⟩ : BufTy).Contents (Elt F) → (⟨S1700000, .f32⟩ : BufTy).Contents (Elt F)),
    nullary main_c_13 (constantI S_ 32 0#32),
    unary main_c_13 main_v64 (broadcastInDim S1700000 ![] bcast_S_S1700000 : (⟨S_, .i32⟩ : BufTy).Contents (Elt F) → (⟨S1700000, .i32⟩ : BufTy).Contents (Elt F)),
    binary main_v3 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v66 (broadcastInDim S1700000 ![] bcast_S_S1700000 : (⟨S_, .i32⟩ : BufTy).Contents (Elt F) → (⟨S1700000, .i32⟩ : BufTy).Contents (Elt F)),
    binary main_v3 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v3 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v48 main_v69 main_v70 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v63 main_v71 (broadcastInDim S1700000x1 ![0] bcast_S1700000_S1700000x1_0 : (⟨S1700000, .f32⟩ : BufTy).Contents (Elt F) → (⟨S1700000x1, .f32⟩ : BufTy).Contents (Elt F)),
    unary main_v71 main_v72 (broadcastInDim S1700000x128 ![0, 1] bcast_S1700000x1_S1700000x128_0_1 : (⟨S1700000x1, .f32⟩ : BufTy).Contents (Elt F) → (⟨S1700000x128, .f32⟩ : BufTy).Contents (Elt F)),
    binary main_v70 main_v72 main_v73 (mulf : (⟨S1700000x128, .f32⟩ : BufTy).Contents (Elt F) → (⟨S1700000x128, .f32⟩ : BufTy).Contents (Elt F) → (⟨S1700000x128, .f32⟩ : BufTy).Contents (Elt F)),
    nullary main_cst_15 (constant S_ .f32 0x00000000#32),
    unary main_cst_15 main_v74 (broadcastInDim S100000x128 ![] bcast_S_S100000x128 : (⟨S_, .f32⟩ : BufTy).Contents (Elt F) → (⟨S100000x128, .f32⟩ : BufTy).Contents (Elt F)),
    unary main_v6 main_v75 (broadcastInDim S1700000x1 ![0] bcast_S1700000_S1700000x1_0 : (⟨S1700000, .i32⟩ : BufTy).Contents (Elt F) → (⟨S1700000x1, .i32⟩ : BufTy).Contents (Elt F)),
    ternary main_v74 main_v75 main_v73 main_v76 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v76 main_v78 main_v79 (addf : (⟨S100000x128, .f32⟩ : BufTy).Contents (Elt F) → (⟨S100000x128, .f32⟩ : BufTy).Contents (Elt F) → (⟨S100000x128, .f32⟩ : BufTy).Contents (Elt F)),
    TRef.nullary (.of main_call2_cst : TRef sig ⟨S_, .f32⟩) (constant S_ .f32 0x00000000#32),
    TRef.unary (.of main_call2_cst : TRef sig ⟨S_, .f32⟩) (.of main_call2_v0 : TRef sig ⟨S100000x128, .f32⟩) (broadcastInDim S100000x128 ![] bcast_S_S100000x128),
    TRef.binary (.of main_v79 : TRef sig ⟨S100000x128, .f32⟩) (.of main_call2_v0 : TRef sig ⟨S100000x128, .f32⟩) (.of main_v80 : TRef sig ⟨S100000x128, .f32⟩) maximumf ]

/-- The third layer's operations. -/
abbrev opsLayer3 : List (HloOp τ sig (Elt F)) :=
  [ binary main_v80 main_arg6 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_16 (constantI S_ 32 0#32),
    unary main_c_16 main_v82 (broadcastInDim S1700000 ![] bcast_S_S1700000 : (⟨S_, .i32⟩ : BufTy).Contents (Elt F) → (⟨S1700000, .i32⟩ : BufTy).Contents (Elt F)),
    binary main_v3 main_v82 main_v83 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v84 (broadcastInDim S1700000 ![] bcast_S_S1700000 : (⟨S_, .i32⟩ : BufTy).Contents (Elt F) → (⟨S1700000, .i32⟩ : BufTy).Contents (Elt F)),
    binary main_v3 main_v84 main_v85 (addi : (⟨S1700000, .i32⟩ : BufTy).Contents (Elt F) → (⟨S1700000, .i32⟩ : BufTy).Contents (Elt F) → (⟨S1700000, .i32⟩ : BufTy).Contents (Elt F)),
    ternary main_v83 main_v85 main_v3 main_v86 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v86 main_v87 (broadcastInDim S1700000x1 ![0] bcast_S1700000_S1700000x1_0 : (⟨S1700000, .i32⟩ : BufTy).Contents (Elt F) → (⟨S1700000x1, .i32⟩ : BufTy).Contents (Elt F)),
    binary main_v14 main_v87 main_v88 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_18 (constantI S_ 32 0#32),
    unary main_c_18 main_v89 (broadcastInDim S1700000 ![] bcast_S_S1700000 : (⟨S_, .i32⟩ : BufTy).Contents (Elt F) → (⟨S1700000, .i32⟩ : BufTy).Contents (Elt F)),
    binary main_v6 main_v89 main_v90 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v91 (broadcastInDim S1700000 ![] bcast_S_S1700000 : (⟨S_, .i32⟩ : BufTy).Contents (Elt F) → (⟨S1700000, .i32⟩ : BufTy).Contents (Elt F)),
    binary main_v6 main_v91 main_v92 (addi : (⟨S1700000, .i32⟩ : BufTy).Contents (Elt F) → (⟨S1700000, .i32⟩ : BufTy).Contents (Elt F) → (⟨S1700000, .i32⟩ : BufTy).Contents (Elt F)),
    ternary main_v90 main_v92 main_v6 main_v93 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v93 main_v94 (broadcastInDim S1700000x1 ![0] bcast_S1700000_S1700000x1_0 : (⟨S1700000, .i32⟩ : BufTy).Contents (Elt F) → (⟨S1700000x1, .i32⟩ : BufTy).Contents (Elt F)),
    binary main_v14 main_v94 main_v95 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v88 main_v95 main_v96 (mulf : (⟨S1700000, .f32⟩ : BufTy).Contents (Elt F) → (⟨S1700000, .f32⟩ : BufTy).Contents (Elt F) → (⟨S1700000, .f32⟩ : BufTy).Contents (Elt F)),
    nullary main_c_20 (constantI S_ 32 0#32),
    unary main_c_20 main_v97 (broadcastInDim S1700000 ![] bcast_S_S1700000 : (⟨S_, .i32⟩ : BufTy).Contents (Elt F) → (⟨S1700000, .i32⟩ : BufTy).Contents (Elt F)),
    binary main_v3 main_v97 main_v98 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v99 (broadcastInDim S1700000 ![] bcast_S_S1700000 : (⟨S_, .i32⟩ : BufTy).Contents (Elt F) → (⟨S1700000, .i32⟩ : BufTy).Contents (Elt F)),
    binary main_v3 main_v99 main_v100 (addi : (⟨S1700000, .i32⟩ : BufTy).Contents (Elt F) → (⟨S1700000, .i32⟩ : BufTy).Contents (Elt F) → (⟨S1700000, .i32⟩ : BufTy).Contents (Elt F)),
    ternary main_v98 main_v100 main_v3 main_v101 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v101 main_v102 (broadcastInDim S1700000x1 ![0] bcast_S1700000_S1700000x1_0 : (⟨S1700000, .i32⟩ : BufTy).Contents (Elt F) → (⟨S1700000x1, .i32⟩ : BufTy).Contents (Elt F)),
    binary main_v81 main_v102 main_v103 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v96 main_v104 (broadcastInDim S1700000x1 ![0] bcast_S1700000_S1700000x1_0 : (⟨S1700000, .f32⟩ : BufTy).Contents (Elt F) → (⟨S1700000x1, .f32⟩ : BufTy).Contents (Elt F)),
    unary main_v104 main_v105 (broadcastInDim S1700000x128 ![0, 1] bcast_S1700000x1_S1700000x128_0_1 : (⟨S1700000x1, .f32⟩ : BufTy).Contents (Elt F) → (⟨S1700000x128, .f32⟩ : BufTy).Contents (Elt F)),
    binary main_v103 main_v105 main_v106 (mulf : (⟨S1700000x128, .f32⟩ : BufTy).Contents (Elt F) → (⟨S1700000x128, .f32⟩ : BufTy).Contents (Elt F) → (⟨S1700000x128, .f32⟩ : BufTy).Contents (Elt F)),
    nullary main_cst_22 (constant S_ .f32 0x00000000#32),
    unary main_cst_22 main_v107 (broadcastInDim S100000x128 ![] bcast_S_S100000x128 : (⟨S_, .f32⟩ : BufTy).Contents (Elt F) → (⟨S100000x128, .f32⟩ : BufTy).Contents (Elt F)),
    unary main_v6 main_v108 (broadcastInDim S1700000x1 ![0] bcast_S1700000_S1700000x1_0 : (⟨S1700000, .i32⟩ : BufTy).Contents (Elt F) → (⟨S1700000x1, .i32⟩ : BufTy).Contents (Elt F)),
    ternary main_v107 main_v108 main_v106 main_v109 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg7 main_v110 (broadcastInDim S1x128 ![1] bcast_S128_S1x128_1 : (⟨S128, .f32⟩ : BufTy).Contents (Elt F) → (⟨S1x128, .f32⟩ : BufTy).Contents (Elt F)),
    unary main_v110 main_v111 (broadcastInDim S100000x128 ![0, 1] bcast_S1x128_S100000x128_0_1 : (⟨S1x128, .f32⟩ : BufTy).Contents (Elt F) → (⟨S100000x128, .f32⟩ : BufTy).Contents (Elt F)),
    binary main_v109 main_v111 main_v112 (addf : (⟨S100000x128, .f32⟩ : BufTy).Contents (Elt F) → (⟨S100000x128, .f32⟩ : BufTy).Contents (Elt F) → (⟨S100000x128, .f32⟩ : BufTy).Contents (Elt F)),
    TRef.nullary (.of main_call3_cst : TRef sig ⟨S_, .f32⟩) (constant S_ .f32 0x00000000#32),
    TRef.unary (.of main_call3_cst : TRef sig ⟨S_, .f32⟩) (.of main_call3_v0 : TRef sig ⟨S100000x128, .f32⟩) (broadcastInDim S100000x128 ![] bcast_S_S100000x128),
    TRef.binary (.of main_v112 : TRef sig ⟨S100000x128, .f32⟩) (.of main_call3_v0 : TRef sig ⟨S100000x128, .f32⟩) (.of main_v113 : TRef sig ⟨S100000x128, .f32⟩) maximumf ]

/-- The line is its four stretches in order. -/
theorem ops_split : (ops : List (HloOp τ sig (Elt F))) = opsGraph ++ (opsLayer1 ++ (opsLayer2 ++ opsLayer3)) := rfl

set_option maxRecDepth 8192 in
set_option maxHeartbeats 4000000 in
/-- The program is the sequence of these operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

/-- Folding over two stretches in a row is folding over the second from what the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- Every weakly fair execution of the reference terminates, and every buffer ends at the fold of the four
    stretches, one after the other, over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = after opsLayer3 (after opsLayer2 (after opsLayer1 (after opsGraph (launchContents m c)))) (Proc.devRef .tc b) :=
  (θ_run defs _ _).mono (fun _ h c b => by
      rw [h c b, ops_split, after_append, after_append, after_append])
    (run_seq scopedRefs_eq scopedSems_eq defs main (fun _ => ops) main_eq (fun _ => ops_sub) m ρ)

end Cert.ReferenceIdeal.Line

end
-- ==== Proof.RefStages.lean ====
/-
  The reference's result is the network of the arguments.

  The reference's line is read one stretch at a time.  After the first stretch the edge lists, the inverse square
  roots of the degrees and the arguments are where the specification says.  Each layer's stretch then computes, from
  the features it finds, exactly the specification's layer in the host's spelling: the product is the host's
  dot_general, the edge weights are recomputed from the same gathers, the bias is broadcast to a row and down the rows,
  the positive part is a maximum against a broadcast zero.  On the extended reals that spelling is the
  specification's layer (the dot_general is the matrix product, bias-and-maximum is the activation).
-/
import proofs.«157408_j30855045055189_1_alg».proof.Proof.RefLine
import proofs.«157408_j30855045055189_1_alg».proof.Proof.Spec
import proofs.«157408_j30855045055189_1_alg».proof.Proof.LibHostWalk

set_option maxRecDepth 16384

noncomputable section

namespace Cert.ReferenceIdeal.Stages

open Cert.ReferenceIdeal Cert.ReferenceIdeal.Gen Cert.ReferenceIdeal.Line Cert.Spec Cert.HostWalk
open Idealize.ShloMosaic Idealize.ShloMosaic.TcCoe Idealize.SL.Sem Idealize.ShloMosaic.StableHlo

/-- One layer in the host's spelling. -/
def layerHost (e : IV S2x1600000) (h : FV S100000x128) (w : FV S128x128) (b : FV S128) : FV S100000x128 :=
  maximumf (F := Ideal)
    (addf (F := Ideal) (agg e (Host.dotGeneral dot_S100000x128_S128x128_S100000x128_1_0_0_1_n_n none h w))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- On the extended reals the host's spelling of a layer is the specification's layer. -/
theorem layerHost_eq (e : IV S2x1600000) (h : FV S100000x128) (w : FV S128x128) (b : FV S128) :
    layerHost e h w b = layer e h w b := by
  unfold layerHost layer
  rw [Cert.Product.dotGeneral_eq (d := dot_S100000x128_S128x128_S100000x128_1_0_0_1_n_n) ⟨rfl, rfl, rfl, rfl, rfl, rfl⟩ none h w]
  exact Cert.Layer.hidden_host _ b _ _ _ _

variable (m : (ℓ : Loc nD τ sig) → Buf (Elt Ideal) ℓ) (c : Dev nD)

/-- The buffer contents after the graph stretch, and after each layer's stretch. -/
def G1 : Valuation τ sig (Elt Ideal) := after opsGraph (launchContents m c)
def G2 : Valuation τ sig (Elt Ideal) := after opsLayer1 (G1 m c)
def G3 : Valuation τ sig (Elt Ideal) := after opsLayer2 (G2 m c)
def G4 : Valuation τ sig (Elt Ideal) := after opsLayer3 (G3 m c)

/-! ## After the graph stretch -/

theorem G1_src : G1 m c (Proc.devRef .tc main_v3) = src (m ((c.tc : Thread nD τ).loc main_arg1)) := by
  unfold G1; walk_back [opsGraph] <;> rfl
theorem G1_dst : G1 m c (Proc.devRef .tc main_v6) = dst (m ((c.tc : Thread nD τ).loc main_arg1)) := by
  unfold G1; walk_back [opsGraph] <;> rfl
theorem G1_dinv : G1 m c (Proc.devRef .tc main_v14) = dinv (m ((c.tc : Thread nD τ).loc main_arg1)) := by
  unfold G1; walk_back [opsGraph] <;> rfl
theorem G1_arg0 : G1 m c (Proc.devRef .tc main_arg0) = (m ((c.tc : Thread nD τ).loc main_arg0)) := by
  unfold G1; walk_back [opsGraph] <;> rfl
theorem G1_arg2 : G1 m c (Proc.devRef .tc main_arg2) = (m ((c.tc : Thread nD τ).loc main_arg2)) := by
  unfold G1; walk_back [opsGraph] <;> rfl
theorem G1_arg3 : G1 m c (Proc.devRef .tc main_arg3) = (m ((c.tc : Thread nD τ).loc main_arg3)) := by
  unfold G1; walk_back [opsGraph] <;> rfl
theorem G1_arg4 : G1 m c (Proc.devRef .tc main_arg4) = (m ((c.tc : Thread nD τ).loc main_arg4)) := by
  unfold G1; walk_back [opsGraph] <;> rfl
theorem G1_arg5 : G1 m c (Proc.devRef .tc main_arg5) = (m ((c.tc : Thread nD τ).loc main_arg5)) := by
  unfold G1; walk_back [opsGraph] <;> rfl
theorem G1_arg6 : G1 m c (Proc.devRef .tc main_arg6) = (m ((c.tc : Thread nD τ).loc main_arg6)) := by
  unfold G1; walk_back [opsGraph] <;> rfl
theorem G1_arg7 : G1 m c (Proc.devRef .tc main_arg7) = (m ((c.tc : Thread nD τ).loc main_arg7)) := by
  unfold G1; walk_back [opsGraph] <;> rfl

/-! ## After the first layer -/

theorem G2_h : G2 m c (Proc.devRef .tc main_v47) = layer (m ((c.tc : Thread nD τ).loc main_arg1)) (m ((c.tc : Thread nD τ).loc main_arg0)) (m ((c.tc : Thread nD τ).loc main_arg2)) (m ((c.tc : Thread nD τ).loc main_arg3)) := by
  unfold G2
  walk_back [opsLayer1, G1_src m c, G1_dst m c, G1_dinv m c, G1_arg0 m c, G1_arg2 m c, G1_arg3 m c]
  exact layerHost_eq _ _ _ _
theorem G2_src : G2 m c (Proc.devRef .tc main_v3) = src (m ((c.tc : Thread nD τ).loc main_arg1)) := by
  unfold G2; walk_back [opsLayer1, G1_src m c] <;> rfl
theorem G2_dst : G2 m c (Proc.devRef .tc main_v6) = dst (m ((c.tc : Thread nD τ).loc main_arg1)) := by
  unfold G2; walk_back [opsLayer1, G1_dst m c] <;> rfl
theorem G2_dinv : G2 m c (Proc.devRef .tc main_v14) = dinv (m ((c.tc : Thread nD τ).loc main_arg1)) := by
  unfold G2; walk_back [opsLayer1, G1_dinv m c] <;> rfl
theorem G2_arg4 : G2 m c (Proc.devRef .tc main_arg4) = (m ((c.tc : Thread nD τ).loc main_arg4)) := by
  unfold G2; walk_back [opsLayer1, G1_arg4 m c] <;> rfl
theorem G2_arg5 : G2 m c (Proc.devRef .tc main_arg5) = (m ((c.tc : Thread nD τ).loc main_arg5)) := by
  unfold G2; walk_back [opsLayer1, G1_arg5 m c] <;> rfl
theorem G2_arg6 : G2 m c (Proc.devRef .tc main_arg6) = (m ((c.tc : Thread nD τ).loc main_arg6)) := by
  unfold G2; walk_back [opsLayer1, G1_arg6 m c] <;> rfl
theorem G2_arg7 : G2 m c (Proc.devRef .tc main_arg7) = (m ((c.tc : Thread nD τ).loc main_arg7)) := by
  unfold G2; walk_back [opsLayer1, G1_arg7 m c] <;> rfl

/-! ## After the second layer -/

theorem G3_h : G3 m c (Proc.devRef .tc main_v80)
    = layer (m ((c.tc : Thread nD τ).loc main_arg1)) (layer (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) := by
  unfold G3
  walk_back [opsLayer2, G2_src m c, G2_dst m c, G2_dinv m c, G2_h m c, G2_arg4 m c, G2_arg5 m c]
  exact layerHost_eq _ _ _ _
theorem G3_src : G3 m c (Proc.devRef .tc main_v3) = src (m ((c.tc : Thread nD τ).loc main_arg1)) := by
  unfold G3; walk_back [opsLayer2, G2_src m c] <;> rfl
theorem G3_dst : G3 m c (Proc.devRef .tc main_v6) = dst (m ((c.tc : Thread nD τ).loc main_arg1)) := by
  unfold G3; walk_back [opsLayer2, G2_dst m c] <;> rfl
theorem G3_dinv : G3 m c (Proc.devRef .tc main_v14) = dinv (m ((c.tc : Thread nD τ).loc main_arg1)) := by
  unfold G3; walk_back [opsLayer2, G2_dinv m c] <;> rfl
theorem G3_arg6 : G3 m c (Proc.devRef .tc main_arg6) = (m ((c.tc : Thread nD τ).loc main_arg6)) := by
  unfold G3; walk_back [opsLayer2, G2_arg6 m c] <;> rfl
theorem G3_arg7 : G3 m c (Proc.devRef .tc main_arg7) = (m ((c.tc : Thread nD τ).loc main_arg7)) := by
  unfold G3; walk_back [opsLayer2, G2_arg7 m c] <;> rfl

/-! ## After the third layer: the result -/

theorem G4_result : G4 m c (Proc.devRef .tc main_v113)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold G4
  walk_back [opsLayer3, G3_src m c, G3_dst m c, G3_dinv m c, G3_h m c, G3_arg6 m c, G3_arg7 m c]
  exact layerHost_eq _ _ _ _

/-- The arguments are written by no operation. -/
theorem G4_arg0 : G4 m c (Proc.devRef .tc main_arg0) = (m ((c.tc : Thread nD τ).loc main_arg0)) := by
  unfold G4 G3 G2 G1; walk_back [opsLayer3, opsLayer2, opsLayer1, opsGraph] <;> rfl
theorem G4_arg1 : G4 m c (Proc.devRef .tc main_arg1) = (m ((c.tc : Thread nD τ).loc main_arg1)) := by
  unfold G4 G3 G2 G1; walk_back [opsLayer3, opsLayer2, opsLayer1, opsGraph] <;> rfl
theorem G4_arg2 : G4 m c (Proc.devRef .tc main_arg2) = (m ((c.tc : Thread nD τ).loc main_arg2)) := by
  unfold G4 G3 G2 G1; walk_back [opsLayer3, opsLayer2, opsLayer1, opsGraph] <;> rfl
theorem G4_arg3 : G4 m c (Proc.devRef .tc main_arg3) = (m ((c.tc : Thread nD τ).loc main_arg3)) := by
  unfold G4 G3 G2 G1; walk_back [opsLayer3, opsLayer2, opsLayer1, opsGraph] <;> rfl
theorem G4_arg4 : G4 m c (Proc.devRef .tc main_arg4) = (m ((c.tc : Thread nD τ).loc main_arg4)) := by
  unfold G4 G3 G2 G1; walk_back [opsLayer3, opsLayer2, opsLayer1, opsGraph] <;> rfl
theorem G4_arg5 : G4 m c (Proc.devRef .tc main_arg5) = (m ((c.tc : Thread nD τ).loc main_arg5)) := by
  unfold G4 G3 G2 G1; walk_back [opsLayer3, opsLayer2, opsLayer1, opsGraph] <;> rfl
theorem G4_arg6 : G4 m c (Proc.devRef .tc main_arg6) = (m ((c.tc : Thread nD τ).loc main_arg6)) := by
  unfold G4 G3 G2 G1; walk_back [opsLayer3, opsLayer2, opsLayer1, opsGraph] <;> rfl
theorem G4_arg7 : G4 m c (Proc.devRef .tc main_arg7) = (m ((c.tc : Thread nD τ).loc main_arg7)) := by
  unfold G4 G3 G2 G1; walk_back [opsLayer3, opsLayer2, opsLayer1, opsGraph] <;> rfl

end Cert.ReferenceIdeal.Stages

end
-- ==== Proof.lean ====
/-
  The certificate's claim: the kernel and its idealization run and leave their arguments unchanged, the reference
  does too, and at the ideal instance the kernel's result equals the reference's, entry by entry.

  The kernel computes a three-layer graph convolution.  Its dense parts are six pipelined calls — per layer a matrix
  product over row blocks and a bias-plus-positive-part pass over row blocks — and its sparse parts (the edge
  lists, the degrees, the gather of rows along the edges and their scatter-add) are host operations, the same ones
  the reference uses.  On the extended reals a change of float format is the identity, a product computed a block
  of rows at a time is the whole product, and bias-and-maximum over row blocks is the whole activation; the edge
  weights the kernel computes once are the ones the reference recomputes in every layer.  So both programs end at
  ONE function of the arguments, `Cert.Spec.net`: the kernel by reading its buffers boundary by boundary
  (Proof/KernelStages.lean over Proof/Products.lean and Proof/Activations.lean), the reference by reading its line of
  operations stretch by stretch (Proof/RefStages.lean).  No law that needs finite inputs is used: the two sides
  perform the same arithmetic in the same order.
-/
import proofs.«157408_j30855045055189_1_alg».proof.Defs
import proofs.«157408_j30855045055189_1_alg».proof.Proof.Gen.Kernel
import proofs.«157408_j30855045055189_1_alg».proof.Proof.Gen.Kernel.Skeleton
import proofs.«157408_j30855045055189_1_alg».proof.Proof.Gen.Kernel.Launch
import proofs.«157408_j30855045055189_1_alg».proof.Proof.Gen.Kernel.Points
import proofs.«157408_j30855045055189_1_alg».proof.Proof.Gen.Kernel.Frame
import proofs.«157408_j30855045055189_1_alg».proof.Proof.Gen.KernelIdeal
import proofs.«157408_j30855045055189_1_alg».proof.Proof.Gen.KernelIdeal.Skeleton
import proofs.«157408_j30855045055189_1_alg».proof.Proof.Gen.KernelIdeal.Launch
import proofs.«157408_j30855045055189_1_alg».proof.Proof.Gen.KernelIdeal.Points
import proofs.«157408_j30855045055189_1_alg».proof.Proof.Gen.KernelIdeal.Frame
import proofs.«157408_j30855045055189_1_alg».proof.Proof.Gen.ReferenceIdeal
import proofs.«157408_j30855045055189_1_alg».proof.Proof.Gen.Pre_finite_inputs
import proofs.«157408_j30855045055189_1_alg».proof.Proof.ResultRun
import proofs.«157408_j30855045055189_1_alg».proof.Proof.KernelStages
import proofs.«157408_j30855045055189_1_alg».proof.Proof.RefLine
import proofs.«157408_j30855045055189_1_alg».proof.Proof.RefStages
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and no operation of its line writes an argument. -/
theorem frame_referenceIdeal : Cert.frame_ReferenceIdeal := fun m ρ _ =>
  (θ_run Cert.ReferenceIdeal.defs _ _).mono (fun _ h c =>
      ⟨(h c _).trans (Cert.ReferenceIdeal.Stages.G4_arg0 m c), (h c _).trans (Cert.ReferenceIdeal.Stages.G4_arg1 m c),
       (h c _).trans (Cert.ReferenceIdeal.Stages.G4_arg2 m c), (h c _).trans (Cert.ReferenceIdeal.Stages.G4_arg3 m c),
       (h c _).trans (Cert.ReferenceIdeal.Stages.G4_arg4 m c), (h c _).trans (Cert.ReferenceIdeal.Stages.G4_arg5 m c),
       (h c _).trans (Cert.ReferenceIdeal.Stages.G4_arg6 m c), (h c _).trans (Cert.ReferenceIdeal.Stages.G4_arg7 m c)⟩)
    (Cert.ReferenceIdeal.Line.run (F := Ideal) m ρ)

/-- The ideal pass rewrote nothing, so there is nothing to preserve. -/
theorem preserves : Cert.preserves_Kernel_KernelIdeal := trivial

/-- Both idealized programs end with the network of the arguments in their result arrays. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Stages.K12_h m ρ c), (h c).2⟩)
      (Cert.KernelIdeal.Result.run (F := Ideal) m ρ)
  · refine (θ_run Cert.ReferenceIdeal.defs _ _).mono (fun _ h c => ?_) (Cert.ReferenceIdeal.Line.run (F := Ideal) m' ρ')
    refine ⟨(h c _).trans ((Cert.ReferenceIdeal.Stages.G4_result m' c).trans ?_),
      (h c _).trans (Cert.ReferenceIdeal.Stages.G4_arg0 m' c), (h c _).trans (Cert.ReferenceIdeal.Stages.G4_arg1 m' c),
      (h c _).trans (Cert.ReferenceIdeal.Stages.G4_arg2 m' c), (h c _).trans (Cert.ReferenceIdeal.Stages.G4_arg3 m' c),
      (h c _).trans (Cert.ReferenceIdeal.Stages.G4_arg4 m' c), (h c _).trans (Cert.ReferenceIdeal.Stages.G4_arg5 m' c),
      (h c _).trans (Cert.ReferenceIdeal.Stages.G4_arg6 m' c), (h c _).trans (Cert.ReferenceIdeal.Stages.G4_arg7 m' c)⟩
    obtain ⟨a0, a1, a2, a3, a4, a5, a6, a7⟩ := hagree c
    rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
